-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000x8192x4 : Shape := ⟨3, ![2000, 8192, 4]⟩
abbrev S_ : Shape := ⟨0, ![]⟩

class Facts : Prop where
  bcast_S_S2000x8192x4 : S_.BroadcastsInDim S2000x8192x4 (![] : Fin 0 → Fin S2000x8192x4.rank)
  reducesTo_S2000x8192x4_S_d0_1_2 : S2000x8192x4.ReducesTo [0, 1, 2] S_
  h_S_ : 0 < S_.numel

variable [Facts]

def fn {F : FTy → Type} [FloatOps F] (main_arg0 : FVec F S2000x8192x4 .f32) (main_arg1 : FVec F S2000x8192x4 .f32) : IVec S_ 1 :=
  let main_v0 : FVec F S2000x8192x4 .f32 := Host.absf main_arg0
  let main_cst : FVec F S_ .f32 := constant S_ .f32 0x7F800000#32
  let main_v1 : FVec F S2000x8192x4 .f32 := broadcastInDim S2000x8192x4 ![] bcast_S_S2000x8192x4 main_cst
  let main_v2 : IVec S2000x8192x4 1 := cmpf .olt main_v0 main_v1
  let main_c : IVec S_ 1 := constantI S_ 1 1#1
  let main_v3 : IVec S_ 1 := (fun x v => Host.reduce IntOp.andi x v reducesTo_S2000x8192x4_S_d0_1_2 h_S_) main_v2 main_c
  let main_v4 : FVec F S2000x8192x4 .f32 := Host.absf main_arg1
  let main_cst_0 : FVec F S_ .f32 := constant S_ .f32 0x7F800000#32
  let main_v5 : FVec F S2000x8192x4 .f32 := broadcastInDim S2000x8192x4 ![] bcast_S_S2000x8192x4 main_cst_0
  let main_v6 : IVec S2000x8192x4 1 := cmpf .olt main_v4 main_v5
  let main_c_1 : IVec S_ 1 := constantI S_ 1 1#1
  let main_v7 : IVec S_ 1 := (fun x v => Host.reduce IntOp.andi x v reducesTo_S2000x8192x4_S_d0_1_2 h_S_) main_v6 main_c_1
  let main_v8 : IVec S_ 1 := andi main_v3 main_v7
  main_v8
-- ==== Kernel.lean ====
abbrev S2000x8192x4 : Shape := ⟨3, ![2000, 8192, 4]⟩
abbrev S2000x32768 : Shape := ⟨2, ![2000, 32768]⟩
abbrev S1x32768 : Shape := ⟨2, ![1, 32768]⟩
abbrev S200x4096 : Shape := ⟨2, ![200, 4096]⟩
abbrev S1x4096 : Shape := ⟨2, ![1, 4096]⟩
abbrev S4096 : Shape := ⟨1, ![4096]⟩
abbrev S8192x4 : Shape := ⟨2, ![8192, 4]⟩
abbrev S_ : Shape := ⟨0, ![]⟩
abbrev S4 : Shape := ⟨1, ![4]⟩

abbrev nBuf : Space → Nat
  | .hbm => 49
  | .vmem => 16
  | .smem => 0
  | _ => 0

abbrev bufTy : (tb : Table) → Fin (tcTables nBuf tb) → BufTy
  | .hbm, ⟨0, _⟩ => ⟨S2000x8192x4, .f32⟩
  | .hbm, ⟨1, _⟩ => ⟨S2000x8192x4, .f32⟩
  | .hbm, ⟨2, _⟩ => ⟨S2000x32768, .f32⟩
  | .hbm, ⟨3, _⟩ => ⟨S2000x32768, .f32⟩
  | .hbm, ⟨4, _⟩ => ⟨S1x32768, .f32⟩
  | .hbm, ⟨5, _⟩ => ⟨S1x32768, .f32⟩
  | .hbm, ⟨6, _⟩ => ⟨S1x32768, .f32⟩
  | .hbm, ⟨7, _⟩ => ⟨S1x32768, .f32⟩
  | .hbm, ⟨8, _⟩ => ⟨S8192x4, .f32⟩
  | .hbm, ⟨9, _⟩ => ⟨S8192x4, .f32⟩
  | .hbm, ⟨10, _⟩ => ⟨S8192x4, .f32⟩
  | .hbm, ⟨11, _⟩ => ⟨S8192x4, .f32⟩
  | .hbm, ⟨12, _⟩ => ⟨S_, .f32⟩
  | .hbm, ⟨13, _⟩ => ⟨S8192x4, .f32⟩
  | .hbm, ⟨14, _⟩ => ⟨S8192x4, .f32⟩
  | .hbm, ⟨15, _⟩ => ⟨S8192x4, .f32⟩
  | .hbm, ⟨16, _⟩ => ⟨S8192x4, .f32⟩
  | .hbm, ⟨17, _⟩ => ⟨S8192x4, .f32⟩
  | .hbm, ⟨18, _⟩ => ⟨S_, .f32⟩
  | .hbm, ⟨19, _⟩ => ⟨S8192x4, .f32⟩
  | .hbm, ⟨20, _⟩ => ⟨S8192x4, .f32⟩
  | .hbm, ⟨21, _⟩ => ⟨S_, .f32⟩
  | .hbm, ⟨22, _⟩ => ⟨S8192x4, .f32⟩
  | .hbm, ⟨23, _⟩ => ⟨S8192x4, .i1⟩
  | .hbm, ⟨24, _⟩ => ⟨S_, .f32⟩
  | .hbm, ⟨25, _⟩ => ⟨S8192x4, .f32⟩
  | .hbm, ⟨26, _⟩ => ⟨S8192x4, .i1⟩
  | .hbm, ⟨27, _⟩ => ⟨S8192x4, .i1⟩
  | .hbm, ⟨28, _⟩ => ⟨S_, .f32⟩
  | .hbm, ⟨29, _⟩ => ⟨S_, .f32⟩
  | .hbm, ⟨30, _⟩ => ⟨S8192x4, .f32⟩
  | .hbm, ⟨31, _⟩ => ⟨S8192x4, .f32⟩
  | .hbm, ⟨32, _⟩ => ⟨S8192x4, .f32⟩
  | .hbm, ⟨33, _⟩ => ⟨S_, .f32⟩
  | .hbm, ⟨34, _⟩ => ⟨S8192x4, .f32⟩
  | .hbm, ⟨35, _⟩ => ⟨S8192x4, .f32⟩
  | .hbm, ⟨36, _⟩ => ⟨S_, .f32⟩
  | .hbm, ⟨37, _⟩ => ⟨S_, .f32⟩
  | .hbm, ⟨38, _⟩ => ⟨S8192x4, .f32⟩
  | .hbm, ⟨39, _⟩ => ⟨S8192x4, .f32⟩
  | .hbm, ⟨40, _⟩ => ⟨S_, .f32⟩
  | .hbm, ⟨41, _⟩ => ⟨S4, .f32⟩
  | .hbm, ⟨42, _⟩ => ⟨S8192x4, .f32⟩
  | .hbm, ⟨43, _⟩ => ⟨S_, .f32⟩
  | .hbm, ⟨44, _⟩ => ⟨S4, .f32⟩
  | .hbm, ⟨45, _⟩ => ⟨S4, .f32⟩
  | .hbm, ⟨46, _⟩ => ⟨S4, .f32⟩
  | .hbm, ⟨47, _⟩ => ⟨S_, .f32⟩
  | .hbm, ⟨48, _⟩ => ⟨S_, .f32⟩
  | .local _ .vmem, ⟨0, _⟩ => ⟨S200x4096, .f32⟩
  | .local _ .vmem, ⟨1, _⟩ => ⟨S200x4096, .f32⟩
  | .local _ .vmem, ⟨2, _⟩ => ⟨S200x4096, .f32⟩
  | .local _ .vmem, ⟨3, _⟩ => ⟨S200x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | .local _ .vmem, ⟨8, _⟩ => ⟨S1x4096, .f32⟩
  | .local _ .vmem, ⟨9, _⟩ => ⟨S1x4096, .f32⟩
  | .local _ .vmem, ⟨10, _⟩ => ⟨S1x4096, .f32⟩
  | .local _ .vmem, ⟨11, _⟩ => ⟨S1x4096, .f32⟩
  | .local _ .vmem, ⟨12, _⟩ => ⟨S1x4096, .f32⟩
  | .local _ .vmem, ⟨13, _⟩ => ⟨S1x4096, .f32⟩
  | .local _ .vmem, ⟨14, _⟩ => ⟨S1x4096, .f32⟩
  | .local _ .vmem, ⟨15, _⟩ => ⟨S1x4096, .f32⟩
  | _, _ => ⟨S2000x8192x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_call1_v0 : Ref sig .tc := ⟨.hbm, 37, rfl⟩
abbrev main_call1_v1 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 10], ![false, false]⟩

def k0_cond2 (i : grid0.Coords) : BitVec 1 :=
  let arg1 : BitVec 32 := BitVec.ofNat 32 (i 1).val
  let c9_i32 : BitVec 32 := 9#32
  let v46 : BitVec 1 := Scalar.cmpi .eq arg1 c9_i32
  let v47 : BitVec 32 := Scalar.extui v46
  let c0_i32_26 : BitVec 32 := 0#32
  let v48 : BitVec 1 := Scalar.cmpi .ne v47 c0_i32_26
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S200x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S200x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S2000x8192x4_S2000x32768 : S2000x8192x4.ShapeCasts S2000x32768
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S200x4096_S200x4096_0_0 : ∀ a, (![0, 0] : Fin 2 → Nat) a + S200x4096.size a ≤ S200x4096.size a
  h_S200x4096 : 0 < S200x4096.numel
  shapeCasts_S200x4096_S200x4096 : S200x4096.ShapeCasts S200x4096
  natLt_1_32 : 1 < 32
  reduces_S200x4096_S4096 : S200x4096.Reduces [0] S4096
  shapeCasts_S4096_S1x4096 : S4096.ShapeCasts S1x4096
  shapeCasts_S1x32768_S8192x4 : S1x32768.ShapeCasts S8192x4
  bcast_S_S8192x4 : S_.BroadcastsInDim S8192x4 (![] : Fin 0 → Fin S8192x4.rank)
  reducesTo_S8192x4_S4_d0 : S8192x4.ReducesTo [0] S4
  h_S_ : 0 < S_.numel
  reducesTo_S4_S_d0 : S4.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x4096.size a ≤ S2000x32768.size a
  hwx0_0 : ∀ i : grid0.Coords, EltTy.bits .f32 = 32 ∨ (Rect.block (s := S2000x32768) S200x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x4096.size a ≤ S2000x32768.size a
  hwx0_1 : ∀ i : grid0.Coords, EltTy.bits .f32 = 32 ∨ (Rect.block (s := S2000x32768) S200x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x32768.size a
  hwx0_2 : ∀ i : grid0.Coords, EltTy.bits .f32 = 32 ∨ (Rect.block (s := S1x32768) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x32768.size a
  hwx0_3 : ∀ i : grid0.Coords, EltTy.bits .f32 = 32 ∨ (Rect.block (s := S1x32768) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x32768.size a
  hwx0_4 : ∀ i : grid0.Coords, EltTy.bits .f32 = 32 ∨ (Rect.block (s := S1x32768) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x32768.size a
  hwx0_5 : ∀ i : grid0.Coords, EltTy.bits .f32 = 32 ∨ (Rect.block (s := S1x32768) S1x4096.size (cc0_transform_5 i) (hinb0_5 i)).WholeWords (EltTy.packing .f32)

variable [Facts₀]

abbrev win0_0 : Pipeline.Window sig grid0 :=
  Pipeline.Window.ofSpec (Memref.whole main_v0) S200x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S200x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_3) S1x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun i => !(k0_cond2 i == 1#1) | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2000x8192x4 : Shape := ⟨3, ![2000, 8192, 4]⟩
abbrev S_ : Shape := ⟨0, ![]⟩
abbrev S8192x4 : Shape := ⟨2, ![8192, 4]⟩
abbrev S1x8192x4 : Shape := ⟨3, ![1, 8192, 4]⟩
abbrev S4 : Shape := ⟨1, ![4]⟩

abbrev nBuf : Space → Nat
  | .hbm => 65
  | .vmem => 0
  | .smem => 0
  | _ => 0

abbrev bufTy : (tb : Table) → Fin (tcTables nBuf tb) → BufTy
  | .hbm, ⟨0, _⟩ => ⟨S2000x8192x4, .f32⟩
  | .hbm, ⟨1, _⟩ => ⟨S2000x8192x4, .f32⟩
  | .hbm, ⟨2, _⟩ => ⟨S2000x8192x4, .i1⟩
  | .hbm, ⟨3, _⟩ => ⟨S2000x8192x4, .i1⟩
  | .hbm, ⟨4, _⟩ => ⟨S_, .f32⟩
  | .hbm, ⟨5, _⟩ => ⟨S_, .f32⟩
  | .hbm, ⟨6, _⟩ => ⟨S2000x8192x4, .f32⟩
  | .hbm, ⟨7, _⟩ => ⟨S2000x8192x4, .f32⟩
  | .hbm, ⟨8, _⟩ => ⟨S_, .f32⟩
  | .hbm, ⟨9, _⟩ => ⟨S_, .f32⟩
  | .hbm, ⟨10, _⟩ => ⟨S2000x8192x4, .f32⟩
  | .hbm, ⟨11, _⟩ => ⟨S2000x8192x4, .f32⟩
  | .hbm, ⟨12, _⟩ => ⟨S2000x8192x4, .i32⟩
  | .hbm, ⟨13, _⟩ => ⟨S_, .i32⟩
  | .hbm, ⟨14, _⟩ => ⟨S8192x4, .i32⟩
  | .hbm, ⟨15, _⟩ => ⟨S_, .i32⟩
  | .hbm, ⟨16, _⟩ => ⟨S8192x4, .i32⟩
  | .hbm, ⟨17, _⟩ => ⟨S8192x4, .i32⟩
  | .hbm, ⟨18, _⟩ => ⟨S8192x4, .f32⟩
  | .hbm, ⟨19, _⟩ => ⟨S_, .f32⟩
  | .hbm, ⟨20, _⟩ => ⟨S8192x4, .f32⟩
  | .hbm, ⟨21, _⟩ => ⟨S8192x4, .f32⟩
  | .hbm, ⟨22, _⟩ => ⟨S1x8192x4, .f32⟩
  | .hbm, ⟨23, _⟩ => ⟨S2000x8192x4, .f32⟩
  | .hbm, ⟨24, _⟩ => ⟨S2000x8192x4, .f32⟩
  | .hbm, ⟨25, _⟩ => ⟨S_, .f32⟩
  | .hbm, ⟨26, _⟩ => ⟨S_, .f32⟩
  | .hbm, ⟨27, _⟩ => ⟨S2000x8192x4, .f32⟩
  | .hbm, ⟨28, _⟩ => ⟨S2000x8192x4, .f32⟩
  | .hbm, ⟨29, _⟩ => ⟨S2000x8192x4, .f32⟩
  | .hbm, ⟨30, _⟩ => ⟨S_, .f32⟩
  | .hbm, ⟨31, _⟩ => ⟨S8192x4, .f32⟩
  | .hbm, ⟨32, _⟩ => ⟨S2000x8192x4, .f32⟩
  | .hbm, ⟨33, _⟩ => ⟨S2000x8192x4, .f32⟩
  | .hbm, ⟨34, _⟩ => ⟨S_, .f32⟩
  | .hbm, ⟨35, _⟩ => ⟨S8192x4, .f32⟩
  | .hbm, ⟨36, _⟩ => ⟨S_, .i32⟩
  | .hbm, ⟨37, _⟩ => ⟨S8192x4, .i32⟩
  | .hbm, ⟨38, _⟩ => ⟨S8192x4, .i1⟩
  | .hbm, ⟨39, _⟩ => ⟨S_, .f32⟩
  | .hbm, ⟨40, _⟩ => ⟨S8192x4, .f32⟩
  | .hbm, ⟨41, _⟩ => ⟨S8192x4, .i1⟩
  | .hbm, ⟨42, _⟩ => ⟨S8192x4, .i1⟩
  | .hbm, ⟨43, _⟩ => ⟨S_, .f32⟩
  | .hbm, ⟨44, _⟩ => ⟨S_, .f32⟩
  | .hbm, ⟨45, _⟩ => ⟨S8192x4, .f32⟩
  | .hbm, ⟨46, _⟩ => ⟨S8192x4, .f32⟩
  | .hbm, ⟨47, _⟩ => ⟨S8192x4, .f32⟩
  | .hbm, ⟨48, _⟩ => ⟨S_, .f32⟩
  | .hbm, ⟨49, _⟩ => ⟨S8192x4, .f32⟩
  | .hbm, ⟨50, _⟩ => ⟨S8192x4, .f32⟩
  | .hbm, ⟨51, _⟩ => ⟨S_, .f32⟩
  | .hbm, ⟨52, _⟩ => ⟨S_, .f32⟩
  | .hbm, ⟨53, _⟩ => ⟨S8192x4, .f32⟩
  | .hbm, ⟨54, _⟩ => ⟨S8192x4, .f32⟩
  | .hbm, ⟨55, _⟩ => ⟨S_, .f32⟩
  | .hbm, ⟨56, _⟩ => ⟨S4, .f32⟩
  | .hbm, ⟨57, _⟩ => ⟨S8192x4, .i32⟩
  | .hbm, ⟨58, _⟩ => ⟨S_, .i32⟩
  | .hbm, ⟨59, _⟩ => ⟨S4, .i32⟩
  | .hbm, ⟨60, _⟩ => ⟨S4, .f32⟩
  | .hbm, ⟨61, _⟩ => ⟨S4, .f32⟩
  | .hbm, ⟨62, _⟩ => ⟨S4, .f32⟩
  | .hbm, ⟨63, _⟩ => ⟨S_, .f32⟩
  | .hbm, ⟨64, _⟩ => ⟨S_, .f32⟩
  | _, _ => ⟨S2000x8192x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_call0_v0 : Ref sig .tc := ⟨.hbm, 5, rfl⟩
abbrev main_call0_v1 : Ref sig .tc := ⟨.hbm, 6, rfl⟩
abbrev main_v2 : Ref sig .tc := ⟨.hbm, 7, rfl⟩
abbrev main_cst_0 : Ref sig .tc := ⟨.hbm, 8, rfl⟩
abbrev main_call1_v0 : Ref sig .tc := ⟨.hbm, 9, rfl⟩
abbrev main_call1_v1 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_call2_v0 : Ref sig .tc := ⟨.hbm, 26, rfl⟩
abbrev main_call2_v1 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_c_6 : Ref sig .tc := ⟨.hbm, 36, rfl⟩
abbrev main_v20 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_8 : Ref sig .tc := ⟨.hbm, 43, rfl⟩
abbrev main_call3_v0 : Ref sig .tc := ⟨.hbm, 44, rfl⟩
abbrev main_call3_v1 : Ref sig .tc := ⟨.hbm, 45, rfl⟩
abbrev main_v25 : Ref sig .tc := ⟨.hbm, 46, rfl⟩
abbrev main_v26 : Ref sig .tc := ⟨.hbm, 47, rfl⟩
abbrev main_cst_9 : Ref sig .tc := ⟨.hbm, 48, rfl⟩
abbrev main_v27 : Ref sig .tc := ⟨.hbm, 49, rfl⟩
abbrev main_v28 : Ref sig .tc := ⟨.hbm, 50, rfl⟩
abbrev main_cst_10 : Ref sig .tc := ⟨.hbm, 51, rfl⟩
abbrev main_call4_v0 : Ref sig .tc := ⟨.hbm, 52, rfl⟩
abbrev main_call4_v1 : Ref sig .tc := ⟨.hbm, 53, rfl⟩
abbrev main_v29 : Ref sig .tc := ⟨.hbm, 54, rfl⟩
abbrev main_cst_11 : Ref sig .tc := ⟨.hbm, 55, rfl⟩
abbrev main_v30 : Ref sig .tc := ⟨.hbm, 56, rfl⟩
abbrev main_v31 : Ref sig .tc := ⟨.hbm, 57, rfl⟩
abbrev main_c_12 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_13 : Ref sig .tc := ⟨.hbm, 63, rfl⟩
abbrev main_v36 : Ref sig .tc := ⟨.hbm, 64, rfl⟩

abbrev nD : Nat := 1
abbrev τ : Topo := Topo.v7x

variable {F : FTy → Type} [FloatOps F]

class Facts₀ : Prop where
  bcast_S_S2000x8192x4 : S_.BroadcastsInDim S2000x8192x4 (![] : Fin 0 → Fin S2000x8192x4.rank)
  natLt_1_32 : 1 < 32
  reducesTo_S2000x8192x4_S8192x4_d0 : S2000x8192x4.ReducesTo [0] S8192x4
  h_S_ : 0 < S_.numel
  bcast_S_S8192x4 : S_.BroadcastsInDim S8192x4 (![] : Fin 0 → Fin S8192x4.rank)
  bcast_S8192x4_S1x8192x4_1_2 : S8192x4.BroadcastsInDim S1x8192x4 (![1, 2] : Fin 2 → Fin S1x8192x4.rank)
  bcast_S1x8192x4_S2000x8192x4_0_1_2 : S1x8192x4.BroadcastsInDim S2000x8192x4 (![0, 1, 2] : Fin 3 → Fin S2000x8192x4.rank)
  reducesTo_S8192x4_S4_d0 : S8192x4.ReducesTo [0] S4
  reducesTo_S4_S_d0 : S4.ReducesTo [0] S_

variable [Facts₀]

class Facts : Prop extends Facts₀ where

variable [Facts]
-- ==== Proof.CasePieces.lean ====
/-
  What each control case of the accumulating kernel leaves behind, as terms of the point's two input blocks and of
  what the point before left in the four carried accumulators. A first point of a column block resets each
  accumulator to zero and adds the block's contribution; a middle point adds onto what it finds; a last point does
  the same and copies the four accumulators into the four output blocks.
-/
import proofs.«133919_j7301444403966_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Cases

open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords)
  (arg2 : Memref sig .tc .vmem S200x4096 .f32) (harg2 : arg2.IsWhole)
  (arg3 : Memref sig .tc .vmem S200x4096 .f32) (harg3 : arg3.IsWhole)
  (arg4 : Memref sig .tc .vmem S1x4096 .f32) (harg4 : arg4.IsWhole)
  (arg5 : Memref sig .tc .vmem S1x4096 .f32) (harg5 : arg5.IsWhole)
  (arg6 : Memref sig .tc .vmem S1x4096 .f32) (harg6 : arg6.IsWhole)
  (arg7 : Memref sig .tc .vmem S1x4096 .f32) (harg7 : arg7.IsWhole)
  (arg8 : Memref sig .tc .vmem S1x4096 .f32) (harg8 : arg8.IsWhole)
  (arg9 : Memref sig .tc .vmem S1x4096 .f32) (harg9 : arg9.IsWhole)
  (arg10 : Memref sig .tc .vmem S1x4096 .f32) (harg10 : arg10.IsWhole)
  (arg11 : Memref sig .tc .vmem S1x4096 .f32) (harg11 : arg11.IsWhole)

/-- A middle point leaves in the count accumulator what it held plus the block's contribution. -/
theorem mid_count (hc0 : ¬cond0_0 i) (hc1 : ¬cond0_1 i) (x0 x1 : Vec F S200x4096 .f32) (xs0 xs1 xs2 xs3 : Vec F S1x4096 .f32) :
    sout0_B_0 c i arg2 harg2 arg3 harg3 arg4 harg4 arg5 harg5 arg6 harg6 arg7 harg7 arg8 harg8 arg9 harg9 arg10 harg10 arg11 harg11 hc0 hc1 x0 x1 xs0 xs1 xs2 xs3 = k0_pay11 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_B
  dsimp only
  try sl_unfold_words
  rw [View.canon_unit_zero hz]
  simp only [View.readAt_eq_ld, harg2.read_unread, harg3.read_unread, harg8.read_unread, harg9.read_unread, harg10.read_unread, harg11.read_unread, View.ld_unit_zero (S := S200x4096) hz, View.ld_unit_zero (S := S1x4096) hz]

/-- A middle point leaves in the sum accumulator what it held plus the block's contribution. -/
theorem mid_sum (hc0 : ¬cond0_0 i) (hc1 : ¬cond0_1 i) (x0 x1 : Vec F S200x4096 .f32) (xs0 xs1 xs2 xs3 : Vec F S1x4096 .f32) :
    sout0_B_1 c i arg2 harg2 arg3 harg3 arg4 harg4 arg5 harg5 arg6 harg6 arg7 harg7 arg8 harg8 arg9 harg9 arg10 harg10 arg11 harg11 hc0 hc1 x0 x1 xs0 xs1 xs2 xs3 = k0_pay12 x1 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_B
  dsimp only
  try sl_unfold_words
  rw [View.canon_unit_zero hz]
  simp only [View.readAt_eq_ld, harg2.read_unread, harg3.read_unread, harg8.read_unread, harg9.read_unread, harg10.read_unread, harg11.read_unread, View.ld_unit_zero (S := S200x4096) hz, View.ld_unit_zero (S := S1x4096) hz]

/-- A middle point leaves in the sumsq accumulator what it held plus the block's contribution. -/
theorem mid_sumsq (hc0 : ¬cond0_0 i) (hc1 : ¬cond0_1 i) (x0 x1 : Vec F S200x4096 .f32) (xs0 xs1 xs2 xs3 : Vec F S1x4096 .f32) :
    sout0_B_2 c i arg2 harg2 arg3 harg3 arg4 harg4 arg5 harg5 arg6 harg6 arg7 harg7 arg8 harg8 arg9 harg9 arg10 harg10 arg11 harg11 hc0 hc1 x0 x1 xs0 xs1 xs2 xs3 = k0_pay1 xs2 (k0_pay13 x1) := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_B
  dsimp only
  try sl_unfold_words
  rw [View.canon_unit_zero hz]
  simp only [View.readAt_eq_ld, harg2.read_unread, harg3.read_unread, harg8.read_unread, harg9.read_unread, harg10.read_unread, harg11.read_unread, View.ld_unit_zero (S := S200x4096) hz, View.ld_unit_zero (S := S1x4096) hz]

/-- A middle point leaves in the resid accumulator what it held plus the block's contribution. -/
theorem mid_resid (hc0 : ¬cond0_0 i) (hc1 : ¬cond0_1 i) (x0 x1 : Vec F S200x4096 .f32) (xs0 xs1 xs2 xs3 : Vec F S1x4096 .f32) :
    sout0_B_3 c i arg2 harg2 arg3 harg3 arg4 harg4 arg5 harg5 arg6 harg6 arg7 harg7 arg8 harg8 arg9 harg9 arg10 harg10 arg11 harg11 hc0 hc1 x0 x1 xs0 xs1 xs2 xs3 = k0_pay2 (k0_pay10 x1 x0) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_B
  dsimp only
  try sl_unfold_words
  rw [View.canon_unit_zero hz]
  simp only [View.readAt_eq_ld, harg2.read_unread, harg3.read_unread, harg8.read_unread, harg9.read_unread, harg10.read_unread, harg11.read_unread, View.ld_unit_zero (S := S200x4096) hz, View.ld_unit_zero (S := S1x4096) hz]

/-- A last point leaves the same in the count accumulator as a middle point. -/
theorem last_count (hc0 : ¬cond0_0 i) (hc1 : cond0_1 i) (x0 x1 : Vec F S200x4096 .f32) (xs0 xs1 xs2 xs3 : Vec F S1x4096 .f32) :
    sout0_C_0 c i arg2 harg2 arg3 harg3 arg4 harg4 arg5 harg5 arg6 harg6 arg7 harg7 arg8 harg8 arg9 harg9 arg10 harg10 arg11 harg11 hc0 hc1 x0 x1 xs0 xs1 xs2 xs3 = k0_pay11 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_C
  dsimp only
  try sl_unfold_words
  rw [View.canon_unit_zero hz]
  simp only [View.readAt_eq_ld, harg2.read_unread, harg3.read_unread, harg8.read_unread, harg9.read_unread, harg10.read_unread, harg11.read_unread, View.ld_unit_zero (S := S200x4096) hz, View.ld_unit_zero (S := S1x4096) hz]

/-- A last point leaves the same in the sum accumulator as a middle point. -/
theorem last_sum (hc0 : ¬cond0_0 i) (hc1 : cond0_1 i) (x0 x1 : Vec F S200x4096 .f32) (xs0 xs1 xs2 xs3 : Vec F S1x4096 .f32) :
    sout0_C_1 c i arg2 harg2 arg3 harg3 arg4 harg4 arg5 harg5 arg6 harg6 arg7 harg7 arg8 harg8 arg9 harg9 arg10 harg10 arg11 harg11 hc0 hc1 x0 x1 xs0 xs1 xs2 xs3 = k0_pay12 x1 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_C
  dsimp only
  try sl_unfold_words
  rw [View.canon_unit_zero hz]
  simp only [View.readAt_eq_ld, harg2.read_unread, harg3.read_unread, harg8.read_unread, harg9.read_unread, harg10.read_unread, harg11.read_unread, View.ld_unit_zero (S := S200x4096) hz, View.ld_unit_zero (S := S1x4096) hz]

/-- A last point leaves the same in the sumsq accumulator as a middle point. -/
theorem last_sumsq (hc0 : ¬cond0_0 i) (hc1 : cond0_1 i) (x0 x1 : Vec F S200x4096 .f32) (xs0 xs1 xs2 xs3 : Vec F S1x4096 .f32) :
    sout0_C_2 c i arg2 harg2 arg3 harg3 arg4 harg4 arg5 harg5 arg6 harg6 arg7 harg7 arg8 harg8 arg9 harg9 arg10 harg10 arg11 harg11 hc0 hc1 x0 x1 xs0 xs1 xs2 xs3 = k0_pay1 xs2 (k0_pay13 x1) := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_C
  dsimp only
  try sl_unfold_words
  rw [View.canon_unit_zero hz]
  simp only [View.readAt_eq_ld, harg2.read_unread, harg3.read_unread, harg8.read_unread, harg9.read_unread, harg10.read_unread, harg11.read_unread, View.ld_unit_zero (S := S200x4096) hz, View.ld_unit_zero (S := S1x4096) hz]

/-- A last point leaves the same in the resid accumulator as a middle point. -/
theorem last_resid (hc0 : ¬cond0_0 i) (hc1 : cond0_1 i) (x0 x1 : Vec F S200x4096 .f32) (xs0 xs1 xs2 xs3 : Vec F S1x4096 .f32) :
    sout0_C_3 c i arg2 harg2 arg3 harg3 arg4 harg4 arg5 harg5 arg6 harg6 arg7 harg7 arg8 harg8 arg9 harg9 arg10 harg10 arg11 harg11 hc0 hc1 x0 x1 xs0 xs1 xs2 xs3 = k0_pay2 (k0_pay10 x1 x0) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_C
  dsimp only
  try sl_unfold_words
  rw [View.canon_unit_zero hz]
  simp only [View.readAt_eq_ld, harg2.read_unread, harg3.read_unread, harg8.read_unread, harg9.read_unread, harg10.read_unread, harg11.read_unread, View.ld_unit_zero (S := S200x4096) hz, View.ld_unit_zero (S := S1x4096) hz]

/-- A last point copies the count accumulator, as it has just updated it, into its output block. -/
theorem last_out_count (hc0 : ¬cond0_0 i) (hc1 : cond0_1 i) (x0 x1 : Vec F S200x4096 .f32) (xs0 xs1 xs2 xs3 : Vec F S1x4096 .f32) :
    out0_C_2 c i arg2 harg2 arg3 harg3 arg4 harg4 arg5 harg5 arg6 harg6 arg7 harg7 arg8 harg8 arg9 harg9 arg10 harg10 arg11 harg11 hc0 hc1 x0 x1 xs0 xs1 xs2 xs3 = k0_pay11 x1 xs0 := by
  unfold out0_C_2
  rw [View.read_writes_eq_canon _ _ _ (cover0_C_2 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_C
  dsimp only
  try sl_unfold_words
  rw [View.canon_unit_zero hz, View.readCov_unit_zero (S := S1x4096) _ hz]
  simp only [View.readAt_eq_ld, harg2.read_unread, harg3.read_unread, harg8.read_unread, harg9.read_unread, harg10.read_unread, harg11.read_unread, View.ld_unit_zero (S := S200x4096) hz, View.ld_unit_zero (S := S1x4096) hz]

/-- A last point copies the sum accumulator, as it has just updated it, into its output block. -/
theorem last_out_sum (hc0 : ¬cond0_0 i) (hc1 : cond0_1 i) (x0 x1 : Vec F S200x4096 .f32) (xs0 xs1 xs2 xs3 : Vec F S1x4096 .f32) :
    out0_C_3 c i arg2 harg2 arg3 harg3 arg4 harg4 arg5 harg5 arg6 harg6 arg7 harg7 arg8 harg8 arg9 harg9 arg10 harg10 arg11 harg11 hc0 hc1 x0 x1 xs0 xs1 xs2 xs3 = k0_pay12 x1 xs1 := by
  unfold out0_C_3
  rw [View.read_writes_eq_canon _ _ _ (cover0_C_3 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_C
  dsimp only
  try sl_unfold_words
  rw [View.canon_unit_zero hz, View.readCov_unit_zero (S := S1x4096) _ hz]
  simp only [View.readAt_eq_ld, harg2.read_unread, harg3.read_unread, harg8.read_unread, harg9.read_unread, harg10.read_unread, harg11.read_unread, View.ld_unit_zero (S := S200x4096) hz, View.ld_unit_zero (S := S1x4096) hz]

/-- A last point copies the sumsq accumulator, as it has just updated it, into its output block. -/
theorem last_out_sumsq (hc0 : ¬cond0_0 i) (hc1 : cond0_1 i) (x0 x1 : Vec F S200x4096 .f32) (xs0 xs1 xs2 xs3 : Vec F S1x4096 .f32) :
    out0_C_4 c i arg2 harg2 arg3 harg3 arg4 harg4 arg5 harg5 arg6 harg6 arg7 harg7 arg8 harg8 arg9 harg9 arg10 harg10 arg11 harg11 hc0 hc1 x0 x1 xs0 xs1 xs2 xs3 = k0_pay1 xs2 (k0_pay13 x1) := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_C
  dsimp only
  try sl_unfold_words
  rw [View.canon_unit_zero hz, View.readCov_unit_zero (S := S1x4096) _ hz]
  simp only [View.readAt_eq_ld, harg2.read_unread, harg3.read_unread, harg8.read_unread, harg9.read_unread, harg10.read_unread, harg11.read_unread, View.ld_unit_zero (S := S200x4096) hz, View.ld_unit_zero (S := S1x4096) hz]

/-- A last point copies the resid accumulator, as it has just updated it, into its output block. -/
theorem last_out_resid (hc0 : ¬cond0_0 i) (hc1 : cond0_1 i) (x0 x1 : Vec F S200x4096 .f32) (xs0 xs1 xs2 xs3 : Vec F S1x4096 .f32) :
    out0_C_5 c i arg2 harg2 arg3 harg3 arg4 harg4 arg5 harg5 arg6 harg6 arg7 harg7 arg8 harg8 arg9 harg9 arg10 harg10 arg11 harg11 hc0 hc1 x0 x1 xs0 xs1 xs2 xs3 = k0_pay2 (k0_pay10 x1 x0) xs3 := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_C
  dsimp only
  try sl_unfold_words
  rw [View.canon_unit_zero hz, View.readCov_unit_zero (S := S1x4096) _ hz]
  simp only [View.readAt_eq_ld, harg2.read_unread, harg3.read_unread, harg8.read_unread, harg9.read_unread, harg10.read_unread, harg11.read_unread, View.ld_unit_zero (S := S200x4096) hz, View.ld_unit_zero (S := S1x4096) hz]

/-- A first point resets the count accumulator to zero and adds the block's contribution. -/
theorem first_count (hc0 : cond0_0 i) (hc1 : ¬cond0_1 i) (x0 x1 : Vec F S200x4096 .f32) :
    sout0_A_0 c i arg2 harg2 arg3 harg3 arg4 harg4 arg5 harg5 arg6 harg6 arg7 harg7 arg8 harg8 arg9 harg9 arg10 harg10 arg11 harg11 hc0 hc1 x0 x1 = k0_pay11 x1 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  rw [View.canon_cons_unit_zero (S := S1x4096) hz, View.readCov_unit_zero (S := S1x4096) _ hz]
  simp only [View.readAt_eq_ld, harg2.read_unread, harg3.read_unread, View.ld_unit_zero (S := S200x4096) hz]

/-- A first point resets the sum accumulator to zero and adds the block's contribution. -/
theorem first_sum (hc0 : cond0_0 i) (hc1 : ¬cond0_1 i) (x0 x1 : Vec F S200x4096 .f32) :
    sout0_A_1 c i arg2 harg2 arg3 harg3 arg4 harg4 arg5 harg5 arg6 harg6 arg7 harg7 arg8 harg8 arg9 harg9 arg10 harg10 arg11 harg11 hc0 hc1 x0 x1 = k0_pay12 x1 (k0_pay4 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  rw [View.canon_cons_unit_zero (S := S1x4096) hz, View.readCov_unit_zero (S := S1x4096) _ hz]
  simp only [View.readAt_eq_ld, harg2.read_unread, harg3.read_unread, View.ld_unit_zero (S := S200x4096) hz]

/-- A first point resets the sumsq accumulator to zero and adds the block's contribution. -/
theorem first_sumsq (hc0 : cond0_0 i) (hc1 : ¬cond0_1 i) (x0 x1 : Vec F S200x4096 .f32) :
    sout0_A_2 c i arg2 harg2 arg3 harg3 arg4 harg4 arg5 harg5 arg6 harg6 arg7 harg7 arg8 harg8 arg9 harg9 arg10 harg10 arg11 harg11 hc0 hc1 x0 x1 = k0_pay1 (k0_pay5 (F := F)) (k0_pay13 x1) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  rw [View.canon_cons_unit_zero (S := S1x4096) hz, View.readCov_unit_zero (S := S1x4096) _ hz]
  simp only [View.readAt_eq_ld, harg2.read_unread, harg3.read_unread, View.ld_unit_zero (S := S200x4096) hz]

/-- A first point resets the resid accumulator to zero and adds the block's contribution. -/
theorem first_resid (hc0 : cond0_0 i) (hc1 : ¬cond0_1 i) (x0 x1 : Vec F S200x4096 .f32) :
    sout0_A_3 c i arg2 harg2 arg3 harg3 arg4 harg4 arg5 harg5 arg6 harg6 arg7 harg7 arg8 harg8 arg9 harg9 arg10 harg10 arg11 harg11 hc0 hc1 x0 x1 = k0_pay2 (k0_pay10 x1 x0) (k0_pay6 (F := F)) := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  rw [View.canon_cons_unit_zero (S := S1x4096) hz, View.readCov_unit_zero (S := S1x4096) _ hz]
  simp only [View.readAt_eq_ld, harg2.read_unread, harg3.read_unread, View.ld_unit_zero (S := S200x4096) hz]

end Cert.KernelIdeal.Cases

end
-- ==== Proof.LibFirstAxis.lean ====
/-
  A sum over the FIRST axis of a rank-2 array, read at an index written by coordinates, for any extents: at column `u`
  it is the `Fin`-indexed sum over the rows `k` of the entries `(k, u)`. (The last-axis form — a row sum — has the same
  shape with the roles of the axes exchanged; this is the column sum that follows it when a whole matrix is totalled in
  two steps.)
-/
import Idealize.ShloMosaic.Lib.Pipeline.Value
import Idealize.ShloMosaic.Lib.ValueIdx
import Idealize.ShloMosaic.PureOps.Ideal.Laws

namespace Cert.LibFirstAxis

open Idealize.ShloMosaic Idealize.ShloMosaic.ValueIdx

/-- The reduced index of a sum over the first axis of an `[a, b]` array, with the coordinate put back: `(k, u)`. -/
theorem lift_first2 {a b : ℕ} (h : (⟨2, ![a, b]⟩ : Shape).Reduces [0] (⟨1, ![b]⟩ : Shape)) (u : Fin b)
    (k : Fin ((⟨2, ![a, b]⟩ : Shape).size 0)) : h.lift (ix1 u) k = ix2 (⟨k.val, k.isLt⟩ : Fin a) u := by
  funext ax; apply Fin.ext
  fin_cases ax <;> rfl

/-- The sum over the first axis of an `[a, b]` array at the ideal values, at `u`: the sum over `k` of the entries `(k, u)`. -/
theorem sum_first2_apply {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (u : Fin b) :
    multiReduction .add [0] ⟨1, ![b]⟩ src acc h hφ hacc (ix1 u) = ∑ k : Fin a, src (ix2 k u) :=
  (Ideal.multiReduction_add_single src acc h hφ hacc (ix1 u)).trans
    (Finset.sum_congr rfl fun k _ => congrArg src (lift_first2 h u k))

end Cert.LibFirstAxis
-- ==== Proof.Payloads.lean ====
/-
  The kernel body's arithmetic at the ideal values, read at an index.

  A block pair is 200 rows by 4096 columns of the output array `xo` and of the target array `xt`. The body masks the
  target by "is not a NaN"; on the extended reals no value differs from itself, so the mask is constantly one and
  every masked value is the value itself. Each of the four accumulators then receives, at column `q`, what it held
  plus a sum over the block's 200 rows: of ones (the count), of the target (its sum), of its square (its sum of
  squares), and of the squared difference of target and output (the residual sum of squares).
-/
import proofs.«133919_j7301444403966_2_alg».proof.Proof.Gen.KernelIdeal.Skeleton
import proofs.«133919_j7301444403966_2_alg».proof.Proof.LibFirstAxis
import Idealize.ShloMosaic.Lib.ValueLayout
import Idealize.ShloMosaic.Lib.ValueIdx
import Idealize.ShloMosaic.Lib.Pipeline.Value
import Idealize.ShloMosaic.Lib.KernelVsHost
import Idealize.ShloMosaic.PureOps.Ideal.Laws

noncomputable section

namespace Cert.KernelIdeal.Payloads

open Cert.KernelIdeal Cert.KernelIdeal.Gen Idealize.ShloMosaic Idealize.ShloMosaic.ValueIdx

/-- No extended real differs from itself: the mask is one everywhere. -/
theorem mask_apply (xt : Vec Ideal S200x4096 .f32) (i : S200x4096.Idx) : k0_pay8 (F := Ideal) xt i = 1#1 := by
  unfold k0_pay8
  show IntOp.xori (Ideal.cmp .one (k0_pay7 (F := Ideal) xt i) (k0_pay7 (F := Ideal) xt i)) 1#1 = 1#1
  have h : Ideal.cmp .one (k0_pay7 (F := Ideal) xt i) (k0_pay7 (F := Ideal) xt i) = 0#1 := by
    simp [Ideal.cmp]
  rw [h]; decide

/-- The masked target is the target. -/
theorem masked_target_apply (xt : Vec Ideal S200x4096 .f32) (i : S200x4096.Idx) : k0_pay9 (F := Ideal) xt i = xt i := by
  unfold k0_pay9
  show Scalar.select (k0_pay8 (F := Ideal) xt i) (k0_pay7 (F := Ideal) xt i) _ = xt i
  rw [mask_apply]
  unfold k0_pay7
  rw [shapeCast_self]
  rfl

/-- The masked difference is target minus output. -/
theorem masked_diff_apply (xt xo : Vec Ideal S200x4096 .f32) (i : S200x4096.Idx) :
    k0_pay10 (F := Ideal) xt xo i = xt i - xo i := by
  unfold k0_pay10
  show k0_pay9 (F := Ideal) xt i - Scalar.select (k0_pay8 (F := Ideal) xt i) (shapeCast S200x4096 xo shapeCasts_S200x4096_S200x4096 i) _ = _
  rw [mask_apply, masked_target_apply, shapeCast_self]
  rfl

/-- The reset value of every accumulator is zero. -/
theorem zero_apply3 (y : S1x4096.Idx) : k0_pay3 (F := Ideal) y = 0 := by
  unfold k0_pay3; rw [shapeCast_self]; exact Ideal.ofBits_zero_f32
theorem zero_apply4 (y : S1x4096.Idx) : k0_pay4 (F := Ideal) y = 0 := by
  unfold k0_pay4; rw [shapeCast_self]; exact Ideal.ofBits_zero_f32
theorem zero_apply5 (y : S1x4096.Idx) : k0_pay5 (F := Ideal) y = 0 := by
  unfold k0_pay5; rw [shapeCast_self]; exact Ideal.ofBits_zero_f32
theorem zero_apply6 (y : S1x4096.Idx) : k0_pay6 (F := Ideal) y = 0 := by
  unfold k0_pay6; rw [shapeCast_self]; exact Ideal.ofBits_zero_f32

/-- The count accumulator gains the number of rows, as a sum of ones. -/
theorem count_step (xt : Vec Ideal S200x4096 .f32) (acc : Vec Ideal S1x4096 .f32) (z : Fin 1) (q : Fin 4096) :
    k0_pay11 (F := Ideal) xt acc (ix2 z q) = acc (ix2 z q) + ∑ _r : Fin 200, (1 : EReal) := by
  unfold k0_pay11
  rw [shapeCast_self]
  show acc (ix2 z q) + _ = _
  congr 1
  refine (shapeCast_a_1a_apply _ _ z q).trans ?_
  refine (Cert.LibFirstAxis.sum_first2_apply _ _ _ _ _ q).trans ?_
  refine Finset.sum_congr rfl fun r _ => ?_
  show ((((k0_pay8 (F := Ideal) xt (ix2 r q)).setWidth 32).toInt : ℝ) : EReal) = 1
  rw [mask_apply]
  norm_num

/-- The target-sum accumulator gains the column's sum over the block's rows. -/
theorem sum_step (xt : Vec Ideal S200x4096 .f32) (acc : Vec Ideal S1x4096 .f32) (z : Fin 1) (q : Fin 4096) :
    k0_pay12 (F := Ideal) xt acc (ix2 z q) = acc (ix2 z q) + ∑ r : Fin 200, xt (ix2 r q) := by
  unfold k0_pay12
  rw [shapeCast_self]
  show acc (ix2 z q) + _ = _
  congr 1
  refine (shapeCast_a_1a_apply _ _ z q).trans ?_
  refine (Cert.LibFirstAxis.sum_first2_apply _ _ _ _ _ q).trans ?_
  exact Finset.sum_congr rfl fun r _ => masked_target_apply xt _

/-- The sum-of-squares accumulator gains the column's sum of squares over the block's rows. -/
theorem sumsq_step (xt : Vec Ideal S200x4096 .f32) (acc : Vec Ideal S1x4096 .f32) (z : Fin 1) (q : Fin 4096) :
    k0_pay1 (F := Ideal) acc (k0_pay13 xt) (ix2 z q) = acc (ix2 z q) + ∑ r : Fin 200, xt (ix2 r q) * xt (ix2 r q) := by
  unfold k0_pay1 k0_pay13
  rw [shapeCast_self]
  show acc (ix2 z q) + _ = _
  congr 1
  refine (shapeCast_a_1a_apply _ _ z q).trans ?_
  refine (Cert.LibFirstAxis.sum_first2_apply _ _ _ _ _ q).trans ?_
  refine Finset.sum_congr rfl fun r _ => ?_
  show k0_pay9 (F := Ideal) xt (ix2 r q) * k0_pay9 (F := Ideal) xt (ix2 r q) = _
  rw [masked_target_apply]

/-- The residual accumulator gains the column's sum of squared differences over the block's rows. -/
theorem resid_step (xt xo : Vec Ideal S200x4096 .f32) (acc : Vec Ideal S1x4096 .f32) (z : Fin 1) (q : Fin 4096) :
    k0_pay2 (F := Ideal) (k0_pay10 xt xo) acc (ix2 z q)
      = acc (ix2 z q) + ∑ r : Fin 200, (xt (ix2 r q) - xo (ix2 r q)) * (xt (ix2 r q) - xo (ix2 r q)) := by
  unfold k0_pay2
  rw [shapeCast_self]
  show acc (ix2 z q) + _ = _
  congr 1
  refine (shapeCast_a_1a_apply _ _ z q).trans ?_
  refine (Cert.LibFirstAxis.sum_first2_apply _ _ _ _ _ q).trans ?_
  refine Finset.sum_congr rfl fun r _ => ?_
  show k0_pay10 (F := Ideal) xt xo (ix2 r q) * k0_pay10 (F := Ideal) xt xo (ix2 r q) = _
  rw [masked_diff_apply]

end Cert.KernelIdeal.Payloads

end
-- ==== Proof.Columns.lean ====
/-
  The four per-column accumulators of the kernel, point by point, and the four arrays the region leaves.

  The grid is 8 column blocks by 10 row blocks; point `n` is row block `n % 10` of column block `n / 10`. Within a
  column block the accumulators are reset at row block 0 and each later row block adds its 200 rows' contribution,
  so after point `n` an accumulator holds, at column `q` of the block, the sum over the row blocks
  `0 … n % 10` of that column block of the rows' contributions. At row block 9 the accumulators are copied to the
  outputs, whose block `n / 10` is then written back: each output array ends holding, at every column, the sum
  over all ten row blocks of the column's contributions.
-/
import proofs.«133919_j7301444403966_2_alg».proof.Proof.CasePieces
import proofs.«133919_j7301444403966_2_alg».proof.Proof.Payloads
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Columns

open Cert.KernelIdeal Cert.KernelIdeal.Gen Idealize.ShloMosaic.ValueIdx

variable (m : (ℓ : Loc nD τ sig) → Buf (Elt Ideal) ℓ)

/-- The output array's block at a point. -/
abbrev oblk (c : Dev nD) (t : Fin cfg0.N) : Vec Ideal S200x4096 .f32 := iblk m c 0 t
/-- The target array's block at a point. -/
abbrev tblk (c : Dev nD) (t : Fin cfg0.N) : Vec Ideal S200x4096 .f32 := iblk m c 1 t

/-- Point `n`'s contribution to the target sum at column `q` of its block (zero past the grid). -/
def sumAt (c : Dev nD) (n : ℕ) (q : Fin 4096) : EReal :=
  if hn : n < cfg0.N then ∑ r : Fin 200, tblk m c ⟨n, hn⟩ (ix2 r q) else 0
/-- Point `n`'s contribution to the target's sum of squares. -/
def sqAt (c : Dev nD) (n : ℕ) (q : Fin 4096) : EReal :=
  if hn : n < cfg0.N then ∑ r : Fin 200, tblk m c ⟨n, hn⟩ (ix2 r q) * tblk m c ⟨n, hn⟩ (ix2 r q) else 0
/-- Point `n`'s contribution to the residual sum of squares. -/
def resAt (c : Dev nD) (n : ℕ) (q : Fin 4096) : EReal :=
  if hn : n < cfg0.N then
    ∑ r : Fin 200, (tblk m c ⟨n, hn⟩ (ix2 r q) - oblk m c ⟨n, hn⟩ (ix2 r q)) * (tblk m c ⟨n, hn⟩ (ix2 r q) - oblk m c ⟨n, hn⟩ (ix2 r q))
  else 0

theorem sumAt_at (c : Dev nD) (t : Fin cfg0.N) (q : Fin 4096) :
    sumAt m c t.val q = ∑ r : Fin 200, tblk m c t (ix2 r q) := by
  unfold sumAt; rw [dif_pos t.isLt]
theorem sqAt_at (c : Dev nD) (t : Fin cfg0.N) (q : Fin 4096) :
    sqAt m c t.val q = ∑ r : Fin 200, tblk m c t (ix2 r q) * tblk m c t (ix2 r q) := by
  unfold sqAt; rw [dif_pos t.isLt]
theorem resAt_at (c : Dev nD) (t : Fin cfg0.N) (q : Fin 4096) :
    resAt m c t.val q = ∑ r : Fin 200, (tblk m c t (ix2 r q) - oblk m c t (ix2 r q)) * (tblk m c t (ix2 r q) - oblk m c t (ix2 r q)) := by
  unfold resAt; rw [dif_pos t.isLt]

/-- What the four accumulators hold after point `n`: the sums over the row blocks so far of its column block. -/
def Inv (c : Dev nD) (n : ℕ) (hn : n < cfg0.N) : Prop := ∀ (z : Fin 1) (q : Fin 4096),
    (outsAt0 m c n hn).2.2.2.2.1 (ix2 z q) = ∑ _s ∈ Finset.range (n % 10 + 1), ∑ _r : Fin 200, (1 : EReal)
  ∧ (outsAt0 m c n hn).2.2.2.2.2.1 (ix2 z q) = ∑ s ∈ Finset.range (n % 10 + 1), sumAt m c (10 * (n / 10) + s) q
  ∧ (outsAt0 m c n hn).2.2.2.2.2.2.1 (ix2 z q) = ∑ s ∈ Finset.range (n % 10 + 1), sqAt m c (10 * (n / 10) + s) q
  ∧ (outsAt0 m c n hn).2.2.2.2.2.2.2 (ix2 z q) = ∑ s ∈ Finset.range (n % 10 + 1), resAt m c (10 * (n / 10) + s) q

/-- At the first row block of a column block the accumulators are zero plus the block's contribution. -/
theorem inv_first (c : Dev nD) (t : Fin cfg0.N) (h0 : t.val % 10 = 0) : Inv m c t.val t.isLt := by
  have h1 : ¬t.val % 10 = 9 := by omega
  have e : 10 * (t.val / 10) + 0 = t.val := by omega
  intro z q
  rw [outsAt0_A m c t h0 h1]
  dsimp only
  rw [Cases.first_count, Cases.first_sum, Cases.first_sumsq, Cases.first_resid, h0, Nat.zero_add,
    Finset.sum_range_one, Finset.sum_range_one, Finset.sum_range_one, Finset.sum_range_one, e]
  refine ⟨?_, ?_, ?_, ?_⟩
  · refine (Payloads.count_step _ _ z q).trans ?_
    rw [Payloads.zero_apply3, zero_add]
  · refine (Payloads.sum_step _ _ z q).trans ?_
    rw [Payloads.zero_apply4, zero_add, sumAt_at]
  · refine (Payloads.sumsq_step _ _ z q).trans ?_
    rw [Payloads.zero_apply5, zero_add, sqAt_at]
  · refine (Payloads.resid_step _ _ _ z q).trans ?_
    rw [Payloads.zero_apply6, zero_add, resAt_at]

/-- At a later row block each accumulator is what the point before left plus the block's contribution. -/
theorem inv_next (c : Dev nD) (t : Fin cfg0.N) (h0 : ¬t.val % 10 = 0)
    (ih : Inv m c (t.val - 1) (Nat.lt_of_le_of_lt (Nat.sub_le _ _) t.isLt)) : Inv m c t.val t.isLt := by
  have hd : (t.val - 1) / 10 = t.val / 10 := by omega
  have hm : (t.val - 1) % 10 + 1 = t.val % 10 := by omega
  have e : 10 * (t.val / 10) + t.val % 10 = t.val := by omega
  intro z q
  obtain ⟨i0, i1, i2, i3⟩ := ih z q
  rw [hm] at i0
  rw [hd, hm] at i1 i2 i3
  have close : k0_pay11 (F := Ideal) (iblk m c 1 t) (outsAt0 m c (t.val - 1) (Nat.lt_of_le_of_lt (Nat.sub_le _ _) t.isLt)).2.2.2.2.1 (ix2 z q)
        = ∑ _s ∈ Finset.range (t.val % 10 + 1), ∑ _r : Fin 200, (1 : EReal)
      ∧ k0_pay12 (F := Ideal) (iblk m c 1 t) (outsAt0 m c (t.val - 1) (Nat.lt_of_le_of_lt (Nat.sub_le _ _) t.isLt)).2.2.2.2.2.1 (ix2 z q)
        = ∑ s ∈ Finset.range (t.val % 10 + 1), sumAt m c (10 * (t.val / 10) + s) q
      ∧ k0_pay1 (F := Ideal) (outsAt0 m c (t.val - 1) (Nat.lt_of_le_of_lt (Nat.sub_le _ _) t.isLt)).2.2.2.2.2.2.1 (k0_pay13 (iblk m c 1 t)) (ix2 z q)
        = ∑ s ∈ Finset.range (t.val % 10 + 1), sqAt m c (10 * (t.val / 10) + s) q
      ∧ k0_pay2 (F := Ideal) (k0_pay10 (iblk m c 1 t) (iblk m c 0 t)) (outsAt0 m c (t.val - 1) (Nat.lt_of_le_of_lt (Nat.sub_le _ _) t.isLt)).2.2.2.2.2.2.2 (ix2 z q)
        = ∑ s ∈ Finset.range (t.val % 10 + 1), resAt m c (10 * (t.val / 10) + s) q := by
    refine ⟨?_, ?_, ?_, ?_⟩
    · refine (Payloads.count_step _ _ z q).trans ?_
      rw [i0, Finset.sum_range_succ]
    · refine (Payloads.sum_step _ _ z q).trans ?_
      rw [i1, Finset.sum_range_succ, e, sumAt_at]
    · refine (Payloads.sumsq_step _ _ z q).trans ?_
      rw [i2, Finset.sum_range_succ, e, sqAt_at]
    · refine (Payloads.resid_step _ _ _ z q).trans ?_
      rw [i3, Finset.sum_range_succ, e, resAt_at]
  by_cases h1 : t.val % 10 = 9
  · rw [outsAt0_C m c t h0 h1]
    dsimp only
    rw [Cases.last_count, Cases.last_sum, Cases.last_sumsq, Cases.last_resid]
    exact close
  · rw [outsAt0_B m c t h0 h1]
    dsimp only
    rw [Cases.mid_count, Cases.mid_sum, Cases.mid_sumsq, Cases.mid_resid]
    exact close

/-- The accumulators after every point. -/
theorem inv (c : Dev nD) : ∀ (n : ℕ) (hn : n < cfg0.N), Inv m c n hn
  | 0, hn => inv_first m c ⟨0, hn⟩ rfl
  | n + 1, hn => by
    by_cases h0 : (n + 1) % 10 = 0
    · exact inv_first m c ⟨n + 1, hn⟩ h0
    · exact inv_next m c ⟨n + 1, hn⟩ h0 (inv c n (Nat.lt_of_succ_lt hn))

/-- At the last row block of a column block the four outputs' blocks hold the four full sums. -/
theorem outs_last (c : Dev nD) (t : Fin cfg0.N) (h9 : t.val % 10 = 9) (z : Fin 1) (q : Fin 4096) :
    (outsAt0 m c t.val t.isLt).1 (ix2 z q) = ∑ _s ∈ Finset.range 10, ∑ _r : Fin 200, (1 : EReal)
  ∧ (outsAt0 m c t.val t.isLt).2.1 (ix2 z q) = ∑ s ∈ Finset.range 10, sumAt m c (10 * (t.val / 10) + s) q
  ∧ (outsAt0 m c t.val t.isLt).2.2.1 (ix2 z q) = ∑ s ∈ Finset.range 10, sqAt m c (10 * (t.val / 10) + s) q
  ∧ (outsAt0 m c t.val t.isLt).2.2.2.1 (ix2 z q) = ∑ s ∈ Finset.range 10, resAt m c (10 * (t.val / 10) + s) q := by
  have h0 : ¬t.val % 10 = 0 := by omega
  have hI := inv m c t.val t.isLt z q
  rw [h9] at hI
  rw [outsAt0_C m c t h0 h9] at hI ⊢
  dsimp only at hI ⊢
  rw [Cases.last_count, Cases.last_sum, Cases.last_sumsq, Cases.last_resid] at hI
  rw [Cases.last_out_count, Cases.last_out_sum, Cases.last_out_sumsq, Cases.last_out_resid]
  exact hI

end Cert.KernelIdeal.Columns

end
-- ==== Proof.BlockSums.lean ====
import Idealize.ShloMosaic.Lib.Pipeline.Value
import Idealize.ShloMosaic.Lib.ValueIdx

/-!
  Block sums and two reshapes read at coordinates.

  `2000` rows split into `10` consecutive blocks of `200` rows: row `200 · s + r` is row `r` of block `s`,
  so the sum over the blocks of the sums over each block's rows is the sum over all rows.

  A reshape keeps row-major order. Column `4 · g + k` of a row of `32768` entries is entry `(g, k)` of an
  `8192 × 4` array: `[2000, 8192, 4]` read as `[2000, 32768]` at `(T, 4g + k)` is the entry `(T, g, k)`, both at
  position `(T · 8192 + g) · 4 + k`; and `[1, 32768]` read as `[8192, 4]` at `(g, k)` is the entry `(0, 4g + k)`, both
  at position `4g + k`.
-/

open Idealize.ShloMosaic Idealize.ShloMosaic.ValueIdx
open scoped BigOperators

namespace Cert.BlockSums

/-- The first `b` blocks of `w` consecutive naturals are the first `w · b` naturals. -/
theorem sum_range_blocks {M : Type*} [AddCommMonoid M] (f : ℕ → M) (w : ℕ) :
    ∀ b : ℕ, (∑ s ∈ Finset.range b, ∑ r ∈ Finset.range w, f (w * s + r)) = ∑ T ∈ Finset.range (w * b), f T
  | 0 => by simp
  | b + 1 => by
    rw [Finset.sum_range_succ, sum_range_blocks f w b, Nat.mul_succ, Finset.sum_range_add]

/-- Ten blocks of two hundred rows are the two thousand rows. -/
theorem sum_blocks {M : Type*} [AddCommMonoid M] (f : ℕ → M) :
    (∑ s ∈ Finset.range 10, ∑ r : Fin 200, f (200 * s + r.val)) = ∑ T : Fin 2000, f T.val := by
  rw [Fin.sum_univ_eq_sum_range (fun T => f T) 2000]
  rw [Finset.sum_congr rfl fun s _ => Fin.sum_univ_eq_sum_range (fun r => f (200 * s + r)) 200]
  exact sum_range_blocks f 200 10

/-- `[2000, 8192, 4]` reshaped to `[2000, 32768]`, read at row `T` and column `4g + k`, is the entry `(T, g, k)`. -/
theorem reshape_cols {α : Type} (x : (⟨3, ![2000, 8192, 4]⟩ : Shape).Idx → α)
    (h : (⟨3, ![2000, 8192, 4]⟩ : Shape).ShapeCasts ⟨2, ![2000, 32768]⟩)
    (T : Fin 2000) (g : Fin 8192) (k : Fin 4) :
    shapeCast ⟨2, ![2000, 32768]⟩ x h (ix2 T (⟨4 * g.val + k.val, by omega⟩ : Fin 32768)) = x (ix3 T g k) := by
  refine shapeCast_apply x h _ (ix3 T g k) ?_
  rw [Shape.rowMajor_val_three, Shape.rowMajor_val_two]
  show (T.val * 8192 + g.val) * 4 + k.val = T.val * 32768 + (4 * g.val + k.val)
  omega

/-- `[1, 32768]` reshaped to `[8192, 4]`, read at `(g, k)`, is the entry at column `4g + k` of the one row. -/
theorem reshape_row {α : Type} (y : (⟨2, ![1, 32768]⟩ : Shape).Idx → α)
    (h : (⟨2, ![1, 32768]⟩ : Shape).ShapeCasts ⟨2, ![8192, 4]⟩)
    (g : Fin 8192) (k : Fin 4) :
    shapeCast ⟨2, ![8192, 4]⟩ y h (ix2 g k) = y (ix2 (0 : Fin 1) (⟨4 * g.val + k.val, by omega⟩ : Fin 32768)) := by
  refine shapeCast_apply y h _ (ix2 (0 : Fin 1) (⟨4 * g.val + k.val, by omega⟩ : Fin 32768)) ?_
  rw [Shape.rowMajor_val_two, Shape.rowMajor_val_two]
  show 0 * 32768 + (4 * g.val + k.val) = g.val * 4 + k.val
  omega

end Cert.BlockSums
-- ==== Proof.Arrays.lean ====
/-
  The four arrays the region leaves, as functions of the two input arrays as the region finds them.

  A point's input block is rows `200 (n % 10) … 200 (n % 10) + 199` and columns `4096 (n / 10) … + 4095` of its
  array. Ten row blocks of 200 rows are the 2000 rows, so each output array holds, at column `col`, the sum over ALL
  rows `T` of the column's contributions: ones (the count), the target, its square, the squared difference of
  target and output. The block a last row block writes back is that function read through the block, and the eight
  column blocks' write-backs cover the array.
-/
import proofs.«133919_j7301444403966_2_alg».proof.Proof.Columns
import proofs.«133919_j7301444403966_2_alg».proof.Proof.BlockSums
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Columns

open Cert.KernelIdeal Cert.KernelIdeal.Gen Idealize.ShloMosaic.ValueIdx

variable (m : (ℓ : Loc nD τ sig) → Buf (Elt Ideal) ℓ)

/-- The input windows' block indices at a point: row block `n % 10`, column block `n / 10`. -/
theorem in_idx : ∀ t : Fin cfg0.N, (win0_0.index t (0 : Fin 2) = t.val % 10 ∧ win0_0.index t (1 : Fin 2) = t.val / 10)
    ∧ (win0_1.index t (0 : Fin 2) = t.val % 10 ∧ win0_1.index t (1 : Fin 2) = t.val / 10) :=
  (by decide +kernel : ∀ t : Fin grid0.N, _)

/-- The output windows' block indices at a point: the one row, column block `n / 10`. -/
theorem out_idx : ∀ t : Fin cfg0.N, (win0_2.index t (0 : Fin 2) = 0 ∧ win0_2.index t (1 : Fin 2) = t.val / 10)
    ∧ (win0_3.index t (0 : Fin 2) = 0 ∧ win0_3.index t (1 : Fin 2) = t.val / 10)
    ∧ (win0_4.index t (0 : Fin 2) = 0 ∧ win0_4.index t (1 : Fin 2) = t.val / 10)
    ∧ (win0_5.index t (0 : Fin 2) = 0 ∧ win0_5.index t (1 : Fin 2) = t.val / 10) :=
  (by decide +kernel : ∀ t : Fin grid0.N, _)

/-- The target array as the region finds it: 2000 rows of 32768 columns. -/
def tgt (c : Dev nD) : S2000x32768.Idx → EReal := V m c main_v1
/-- The output array as the region finds it. -/
def outp (c : Dev nD) : S2000x32768.Idx → EReal := V m c main_v0

/-- The target's block at a point, entry `(r, q)`: row `200 (n % 10) + r`, column `4096 (n / 10) + q` of the array. -/
theorem tblk_apply (c : Dev nD) (t : Fin cfg0.N) (r : Fin 200) (q : Fin 4096) (k : S2000x32768.Idx)
    (hk0 : (k 0).val = 200 * (t.val % 10) + r.val) (hk1 : (k 1).val = 4096 * (t.val / 10) + q.val) :
    tblk m c t (ix2 r q) = tgt m c k := by
  obtain ⟨-, e0, e1⟩ := in_idx t
  unfold tblk tgt iblk
  rw [View.read_apply]
  show V m c main_v1 _ = V m c main_v1 k
  refine congrArg (V m c main_v1) (funext fun a => Fin.ext ?_)
  match a with
  | ⟨0, _⟩ => show win0_1.index t (0 : Fin 2) * 200 + 1 * r.val = (k 0).val; rw [e0, hk0]; omega
  | ⟨1, _⟩ => show win0_1.index t (1 : Fin 2) * 4096 + 1 * q.val = (k 1).val; rw [e1, hk1]; omega

/-- The output array's block at a point, likewise. -/
theorem oblk_apply (c : Dev nD) (t : Fin cfg0.N) (r : Fin 200) (q : Fin 4096) (k : S2000x32768.Idx)
    (hk0 : (k 0).val = 200 * (t.val % 10) + r.val) (hk1 : (k 1).val = 4096 * (t.val / 10) + q.val) :
    oblk m c t (ix2 r q) = outp m c k := by
  obtain ⟨⟨e0, e1⟩, -⟩ := in_idx t
  unfold oblk outp iblk
  rw [View.read_apply]
  show V m c main_v0 _ = V m c main_v0 k
  refine congrArg (V m c main_v0) (funext fun a => Fin.ext ?_)
  match a with
  | ⟨0, _⟩ => show win0_0.index t (0 : Fin 2) * 200 + 1 * r.val = (k 0).val; rw [e0, hk0]; omega
  | ⟨1, _⟩ => show win0_0.index t (1 : Fin 2) * 4096 + 1 * q.val = (k 1).val; rw [e1, hk1]; omega

/-- Ten blocks of 200 ones are 2000 ones. -/
theorem count_rows : (∑ _s ∈ Finset.range 10, ∑ _r : Fin 200, (1 : EReal)) = ∑ _T : Fin 2000, (1 : EReal) :=
  Cert.BlockSums.sum_blocks (M := EReal) (fun _ => (1 : EReal))

/-- Column `col` of the target as a function of the row number (zero past the last row). -/
def sumCol (c : Dev nD) (col : Fin 32768) (a : ℕ) : EReal :=
  if h : a < 2000 then tgt m c (ix2 (⟨a, h⟩ : Fin 2000) col) else 0

/-- Ten row blocks of 200 rows are the 2000 rows: the contributions of a column block's ten points add up to the sum over all rows. -/
theorem sum_rows (c : Dev nD) (b : ℕ) (hb : b < 8) (q : Fin 4096) :
    ∑ s ∈ Finset.range 10, sumAt m c (10 * b + s) q
      = ∑ T : Fin 2000, tgt m c (ix2 T (⟨4096 * b + q.val, by omega⟩ : Fin 32768)) := by
  have hN : cfg0.N = 80 := N_0
  have hcol : 4096 * b + q.val < 32768 := by omega
  have h1 : ∀ s ∈ Finset.range 10, sumAt m c (10 * b + s) q
      = ∑ r : Fin 200, sumCol m c ⟨4096 * b + q.val, hcol⟩ (200 * s + r.val) := by
    intro s hs
    have hs' : s < 10 := Finset.mem_range.mp hs
    have hn : 10 * b + s < cfg0.N := by omega
    rw [sumAt_at m c ⟨10 * b + s, hn⟩ q]
    refine Finset.sum_congr rfl fun r _ => ?_
    have hr : r.val < 200 := r.isLt
    have ha : 200 * s + r.val < 2000 := by omega
    unfold sumCol
    rw [dif_pos ha]
    rw [tblk_apply m c ⟨10 * b + s, hn⟩ r q (ix2 (⟨200 * s + r.val, ha⟩ : Fin 2000) (⟨4096 * b + q.val, hcol⟩ : Fin 32768))
        (by show 200 * s + r.val = 200 * ((10 * b + s) % 10) + r.val; omega)
        (by show 4096 * b + q.val = 4096 * ((10 * b + s) / 10) + q.val; omega)]
  rw [Finset.sum_congr rfl h1, Cert.BlockSums.sum_blocks (sumCol m c ⟨4096 * b + q.val, hcol⟩)]
  refine Finset.sum_congr rfl fun T _ => ?_
  unfold sumCol
  rw [dif_pos T.isLt]

/-- Column `col` of the squared target as a function of the row number (zero past the last row). -/
def sqCol (c : Dev nD) (col : Fin 32768) (a : ℕ) : EReal :=
  if h : a < 2000 then tgt m c (ix2 (⟨a, h⟩ : Fin 2000) col) * tgt m c (ix2 (⟨a, h⟩ : Fin 2000) col) else 0

/-- Ten row blocks of 200 rows are the 2000 rows: the contributions of a column block's ten points add up to the sum over all rows. -/
theorem sq_rows (c : Dev nD) (b : ℕ) (hb : b < 8) (q : Fin 4096) :
    ∑ s ∈ Finset.range 10, sqAt m c (10 * b + s) q
      = ∑ T : Fin 2000, tgt m c (ix2 T (⟨4096 * b + q.val, by omega⟩ : Fin 32768)) * tgt m c (ix2 T (⟨4096 * b + q.val, by omega⟩ : Fin 32768)) := by
  have hN : cfg0.N = 80 := N_0
  have hcol : 4096 * b + q.val < 32768 := by omega
  have h1 : ∀ s ∈ Finset.range 10, sqAt m c (10 * b + s) q
      = ∑ r : Fin 200, sqCol m c ⟨4096 * b + q.val, hcol⟩ (200 * s + r.val) := by
    intro s hs
    have hs' : s < 10 := Finset.mem_range.mp hs
    have hn : 10 * b + s < cfg0.N := by omega
    rw [sqAt_at m c ⟨10 * b + s, hn⟩ q]
    refine Finset.sum_congr rfl fun r _ => ?_
    have hr : r.val < 200 := r.isLt
    have ha : 200 * s + r.val < 2000 := by omega
    unfold sqCol
    rw [dif_pos ha]
    rw [tblk_apply m c ⟨10 * b + s, hn⟩ r q (ix2 (⟨200 * s + r.val, ha⟩ : Fin 2000) (⟨4096 * b + q.val, hcol⟩ : Fin 32768))
        (by show 200 * s + r.val = 200 * ((10 * b + s) % 10) + r.val; omega)
        (by show 4096 * b + q.val = 4096 * ((10 * b + s) / 10) + q.val; omega)]
  rw [Finset.sum_congr rfl h1, Cert.BlockSums.sum_blocks (sqCol m c ⟨4096 * b + q.val, hcol⟩)]
  refine Finset.sum_congr rfl fun T _ => ?_
  unfold sqCol
  rw [dif_pos T.isLt]

/-- Column `col` of the squared difference of target and output as a function of the row number (zero past the last row). -/
def resCol (c : Dev nD) (col : Fin 32768) (a : ℕ) : EReal :=
  if h : a < 2000 then (tgt m c (ix2 (⟨a, h⟩ : Fin 2000) col) - outp m c (ix2 (⟨a, h⟩ : Fin 2000) col)) * (tgt m c (ix2 (⟨a, h⟩ : Fin 2000) col) - outp m c (ix2 (⟨a, h⟩ : Fin 2000) col)) else 0

/-- Ten row blocks of 200 rows are the 2000 rows: the contributions of a column block's ten points add up to the sum over all rows. -/
theorem res_rows (c : Dev nD) (b : ℕ) (hb : b < 8) (q : Fin 4096) :
    ∑ s ∈ Finset.range 10, resAt m c (10 * b + s) q
      = ∑ T : Fin 2000, (tgt m c (ix2 T (⟨4096 * b + q.val, by omega⟩ : Fin 32768)) - outp m c (ix2 T (⟨4096 * b + q.val, by omega⟩ : Fin 32768))) * (tgt m c (ix2 T (⟨4096 * b + q.val, by omega⟩ : Fin 32768)) - outp m c (ix2 T (⟨4096 * b + q.val, by omega⟩ : Fin 32768))) := by
  have hN : cfg0.N = 80 := N_0
  have hcol : 4096 * b + q.val < 32768 := by omega
  have h1 : ∀ s ∈ Finset.range 10, resAt m c (10 * b + s) q
      = ∑ r : Fin 200, resCol m c ⟨4096 * b + q.val, hcol⟩ (200 * s + r.val) := by
    intro s hs
    have hs' : s < 10 := Finset.mem_range.mp hs
    have hn : 10 * b + s < cfg0.N := by omega
    rw [resAt_at m c ⟨10 * b + s, hn⟩ q]
    refine Finset.sum_congr rfl fun r _ => ?_
    have hr : r.val < 200 := r.isLt
    have ha : 200 * s + r.val < 2000 := by omega
    unfold resCol
    rw [dif_pos ha]
    rw [tblk_apply m c ⟨10 * b + s, hn⟩ r q (ix2 (⟨200 * s + r.val, ha⟩ : Fin 2000) (⟨4096 * b + q.val, hcol⟩ : Fin 32768))
        (by show 200 * s + r.val = 200 * ((10 * b + s) % 10) + r.val; omega)
        (by show 4096 * b + q.val = 4096 * ((10 * b + s) / 10) + q.val; omega),
      oblk_apply m c ⟨10 * b + s, hn⟩ r q (ix2 (⟨200 * s + r.val, ha⟩ : Fin 2000) (⟨4096 * b + q.val, hcol⟩ : Fin 32768))
        (by show 200 * s + r.val = 200 * ((10 * b + s) % 10) + r.val; omega)
        (by show 4096 * b + q.val = 4096 * ((10 * b + s) / 10) + q.val; omega)]
  rw [Finset.sum_congr rfl h1, Cert.BlockSums.sum_blocks (resCol m c ⟨4096 * b + q.val, hcol⟩)]
  refine Finset.sum_congr rfl fun T _ => ?_
  unfold resCol
  rw [dif_pos T.isLt]

/-- The count array: the number of rows, in every column. -/
def colCount : S1x32768.Idx → EReal := fun _ => ∑ _T : Fin 2000, (1 : EReal)
/-- The target-sum array: column `col` of the target summed over all rows. -/
def colSum (c : Dev nD) : S1x32768.Idx → EReal := fun y =>
  ∑ T : Fin 2000, tgt m c (ix2 T (⟨(y 1).val, (y 1).isLt⟩ : Fin 32768))
/-- The sum-of-squares array. -/
def colSq (c : Dev nD) : S1x32768.Idx → EReal := fun y =>
  ∑ T : Fin 2000, tgt m c (ix2 T (⟨(y 1).val, (y 1).isLt⟩ : Fin 32768)) * tgt m c (ix2 T (⟨(y 1).val, (y 1).isLt⟩ : Fin 32768))
/-- The residual array. -/
def colRes (c : Dev nD) : S1x32768.Idx → EReal := fun y =>
  ∑ T : Fin 2000, (tgt m c (ix2 T (⟨(y 1).val, (y 1).isLt⟩ : Fin 32768)) - outp m c (ix2 T (⟨(y 1).val, (y 1).isLt⟩ : Fin 32768))) * (tgt m c (ix2 T (⟨(y 1).val, (y 1).isLt⟩ : Fin 32768)) - outp m c (ix2 T (⟨(y 1).val, (y 1).isLt⟩ : Fin 32768)))

/-- An index of the count array is in point `t`'s block iff each coordinate is in the block's range on its axis. -/
theorem mem_blk2 (t : Fin cfg0.N) (i : S1x32768.Idx) :
    i ∈ ((cfg0.win 2).blk t).view.set ↔ ∀ a : Fin 2, win0_2.index t a * S1x4096.size a ≤ (i a).val ∧ (i a).val < win0_2.index t a * S1x4096.size a + S1x4096.size a := by
  show i ∈ ((View.whole main_v2_0).slice (win0_2.rect t)).set ↔ _
  rw [View.set_slice_whole, Rect.mem_set_unit]
  exact Iff.rfl

/-- What a last row block writes back into the count array is its block of the column function. -/
theorem flushed_count (c : Dev nD) (t : Fin cfg0.N) (hf : (cfg0.win 2).flush t = true) :
    (dats m 0 c).flushed 2 t = ((cfg0.win 2).blk t).view.read (Elt Ideal) (colCount) := by
  have h9 : t.val % 10 = 9 := (flush0_2 t).mp hf
  have hN : cfg0.N = 80 := N_0
  have hb : t.val / 10 < 8 := by have := t.isLt; omega
  have e1 : win0_2.index t (1 : Fin 2) = t.val / 10 := (out_idx t).1.2
  show (cfg0.win 2).cut (grid0.coords t) ((dats m 0 c).after 2 t) = _
  rw [after0_2]
  refine funext fun (y : S1x4096.Idx) => ?_
  obtain ⟨z, q, rfl⟩ : ∃ (z : Fin 1) (q : Fin 4096), y = ix2 z q := ⟨y 0, y 1, eq_ix2 y⟩
  refine ((outs_last m c t h9 z q).1).trans ?_
  rw [count_rows]
  show _ = colCount (((cfg0.win 2).blk t).view.emb (ix2 z q))
  rfl

/-- Every index of the count array is in the block of its column block's last row block. -/
theorem cover_count (i : S1x32768.Idx) :
    ∃ t : Fin cfg0.N, (cfg0.win 2).flush t = true ∧ i ∈ ((cfg0.win 2).blk t).view.set := by
  have hN : cfg0.N = 80 := N_0
  have h0 : (i 0).val < 1 := (i 0).isLt
  have h1 : (i 1).val < 32768 := (i 1).isLt
  have hlt : 10 * ((i 1).val / 4096) + 9 < cfg0.N := by omega
  have e0 : win0_2.index ⟨10 * ((i 1).val / 4096) + 9, hlt⟩ (0 : Fin 2) = 0 := (out_idx _).1.1
  have e1 : win0_2.index ⟨10 * ((i 1).val / 4096) + 9, hlt⟩ (1 : Fin 2) = (10 * ((i 1).val / 4096) + 9) / 10 := (out_idx _).1.2
  refine ⟨⟨10 * ((i 1).val / 4096) + 9, hlt⟩, (flush0_2 _).mpr (by show (10 * ((i 1).val / 4096) + 9) % 10 = 9; omega), ?_⟩
  rw [mem_blk2]
  intro a
  match a with
  | ⟨0, _⟩ =>
    show win0_2.index ⟨10 * ((i 1).val / 4096) + 9, hlt⟩ (0 : Fin 2) * 1 ≤ (i 0).val ∧ (i 0).val < win0_2.index ⟨10 * ((i 1).val / 4096) + 9, hlt⟩ (0 : Fin 2) * 1 + 1
    rw [e0]; omega
  | ⟨1, _⟩ =>
    show win0_2.index ⟨10 * ((i 1).val / 4096) + 9, hlt⟩ (1 : Fin 2) * 4096 ≤ (i 1).val ∧ (i 1).val < win0_2.index ⟨10 * ((i 1).val / 4096) + 9, hlt⟩ (1 : Fin 2) * 4096 + 4096
    rw [e1]; omega

/-- The count array after the region. -/
theorem final_count (c : Dev nD) : (dats m 0 c).arrAt 2 cfg0.N = colCount :=
  (dats m 0 c).arrAt_eq_of_cover 2 (colCount) (flushed_count m c) cover_count

/-- An index of the sum array is in point `t`'s block iff each coordinate is in the block's range on its axis. -/
theorem mem_blk3 (t : Fin cfg0.N) (i : S1x32768.Idx) :
    i ∈ ((cfg0.win 3).blk t).view.set ↔ ∀ a : Fin 2, win0_3.index t a * S1x4096.size a ≤ (i a).val ∧ (i a).val < win0_3.index t a * S1x4096.size a + S1x4096.size a := by
  show i ∈ ((View.whole main_v2_1).slice (win0_3.rect t)).set ↔ _
  rw [View.set_slice_whole, Rect.mem_set_unit]
  exact Iff.rfl

/-- What a last row block writes back into the sum array is its block of the column function. -/
theorem flushed_sum (c : Dev nD) (t : Fin cfg0.N) (hf : (cfg0.win 3).flush t = true) :
    (dats m 0 c).flushed 3 t = ((cfg0.win 3).blk t).view.read (Elt Ideal) (colSum m c) := by
  have h9 : t.val % 10 = 9 := (flush0_3 t).mp hf
  have hN : cfg0.N = 80 := N_0
  have hb : t.val / 10 < 8 := by have := t.isLt; omega
  have e1 : win0_3.index t (1 : Fin 2) = t.val / 10 := (out_idx t).2.1.2
  show (cfg0.win 3).cut (grid0.coords t) ((dats m 0 c).after 3 t) = _
  rw [after0_3]
  refine funext fun (y : S1x4096.Idx) => ?_
  obtain ⟨z, q, rfl⟩ : ∃ (z : Fin 1) (q : Fin 4096), y = ix2 z q := ⟨y 0, y 1, eq_ix2 y⟩
  refine ((outs_last m c t h9 z q).2.1).trans ?_
  rw [sum_rows m c (t.val / 10) hb q]
  show _ = colSum m c (((cfg0.win 3).blk t).view.emb (ix2 z q))
  refine Finset.sum_congr rfl fun T _ => ?_
  have ei : (ix2 T (⟨4096 * (t.val / 10) + q.val, by omega⟩ : Fin 32768) : S2000x32768.Idx)
      = ix2 T (⟨((((cfg0.win 3).blk t).view.emb (ix2 z q)) 1).val, ((((cfg0.win 3).blk t).view.emb (ix2 z q)) 1).isLt⟩ : Fin 32768) := by
    refine congrArg (ix2 T) (Fin.ext ?_)
    show 4096 * (t.val / 10) + q.val = win0_3.index t (1 : Fin 2) * 4096 + 1 * q.val
    rw [e1]; omega
  rw [ei]

/-- Every index of the sum array is in the block of its column block's last row block. -/
theorem cover_sum (i : S1x32768.Idx) :
    ∃ t : Fin cfg0.N, (cfg0.win 3).flush t = true ∧ i ∈ ((cfg0.win 3).blk t).view.set := by
  have hN : cfg0.N = 80 := N_0
  have h0 : (i 0).val < 1 := (i 0).isLt
  have h1 : (i 1).val < 32768 := (i 1).isLt
  have hlt : 10 * ((i 1).val / 4096) + 9 < cfg0.N := by omega
  have e0 : win0_3.index ⟨10 * ((i 1).val / 4096) + 9, hlt⟩ (0 : Fin 2) = 0 := (out_idx _).2.1.1
  have e1 : win0_3.index ⟨10 * ((i 1).val / 4096) + 9, hlt⟩ (1 : Fin 2) = (10 * ((i 1).val / 4096) + 9) / 10 := (out_idx _).2.1.2
  refine ⟨⟨10 * ((i 1).val / 4096) + 9, hlt⟩, (flush0_3 _).mpr (by show (10 * ((i 1).val / 4096) + 9) % 10 = 9; omega), ?_⟩
  rw [mem_blk3]
  intro a
  match a with
  | ⟨0, _⟩ =>
    show win0_3.index ⟨10 * ((i 1).val / 4096) + 9, hlt⟩ (0 : Fin 2) * 1 ≤ (i 0).val ∧ (i 0).val < win0_3.index ⟨10 * ((i 1).val / 4096) + 9, hlt⟩ (0 : Fin 2) * 1 + 1
    rw [e0]; omega
  | ⟨1, _⟩ =>
    show win0_3.index ⟨10 * ((i 1).val / 4096) + 9, hlt⟩ (1 : Fin 2) * 4096 ≤ (i 1).val ∧ (i 1).val < win0_3.index ⟨10 * ((i 1).val / 4096) + 9, hlt⟩ (1 : Fin 2) * 4096 + 4096
    rw [e1]; omega

/-- The sum array after the region. -/
theorem final_sum (c : Dev nD) : (dats m 0 c).arrAt 3 cfg0.N = colSum m c :=
  (dats m 0 c).arrAt_eq_of_cover 3 (colSum m c) (flushed_sum m c) cover_sum

/-- An index of the sumsq array is in point `t`'s block iff each coordinate is in the block's range on its axis. -/
theorem mem_blk4 (t : Fin cfg0.N) (i : S1x32768.Idx) :
    i ∈ ((cfg0.win 4).blk t).view.set ↔ ∀ a : Fin 2, win0_4.index t a * S1x4096.size a ≤ (i a).val ∧ (i a).val < win0_4.index t a * S1x4096.size a + S1x4096.size a := by
  show i ∈ ((View.whole main_v2_2).slice (win0_4.rect t)).set ↔ _
  rw [View.set_slice_whole, Rect.mem_set_unit]
  exact Iff.rfl

/-- What a last row block writes back into the sumsq array is its block of the column function. -/
theorem flushed_sumsq (c : Dev nD) (t : Fin cfg0.N) (hf : (cfg0.win 4).flush t = true) :
    (dats m 0 c).flushed 4 t = ((cfg0.win 4).blk t).view.read (Elt Ideal) (colSq m c) := by
  have h9 : t.val % 10 = 9 := (flush0_4 t).mp hf
  have hN : cfg0.N = 80 := N_0
  have hb : t.val / 10 < 8 := by have := t.isLt; omega
  have e1 : win0_4.index t (1 : Fin 2) = t.val / 10 := (out_idx t).2.2.1.2
  show (cfg0.win 4).cut (grid0.coords t) ((dats m 0 c).after 4 t) = _
  rw [after0_4]
  refine funext fun (y : S1x4096.Idx) => ?_
  obtain ⟨z, q, rfl⟩ : ∃ (z : Fin 1) (q : Fin 4096), y = ix2 z q := ⟨y 0, y 1, eq_ix2 y⟩
  refine ((outs_last m c t h9 z q).2.2.1).trans ?_
  rw [sq_rows m c (t.val / 10) hb q]
  show _ = colSq m c (((cfg0.win 4).blk t).view.emb (ix2 z q))
  refine Finset.sum_congr rfl fun T _ => ?_
  have ei : (ix2 T (⟨4096 * (t.val / 10) + q.val, by omega⟩ : Fin 32768) : S2000x32768.Idx)
      = ix2 T (⟨((((cfg0.win 4).blk t).view.emb (ix2 z q)) 1).val, ((((cfg0.win 4).blk t).view.emb (ix2 z q)) 1).isLt⟩ : Fin 32768) := by
    refine congrArg (ix2 T) (Fin.ext ?_)
    show 4096 * (t.val / 10) + q.val = win0_4.index t (1 : Fin 2) * 4096 + 1 * q.val
    rw [e1]; omega
  rw [ei]

/-- Every index of the sumsq array is in the block of its column block's last row block. -/
theorem cover_sumsq (i : S1x32768.Idx) :
    ∃ t : Fin cfg0.N, (cfg0.win 4).flush t = true ∧ i ∈ ((cfg0.win 4).blk t).view.set := by
  have hN : cfg0.N = 80 := N_0
  have h0 : (i 0).val < 1 := (i 0).isLt
  have h1 : (i 1).val < 32768 := (i 1).isLt
  have hlt : 10 * ((i 1).val / 4096) + 9 < cfg0.N := by omega
  have e0 : win0_4.index ⟨10 * ((i 1).val / 4096) + 9, hlt⟩ (0 : Fin 2) = 0 := (out_idx _).2.2.1.1
  have e1 : win0_4.index ⟨10 * ((i 1).val / 4096) + 9, hlt⟩ (1 : Fin 2) = (10 * ((i 1).val / 4096) + 9) / 10 := (out_idx _).2.2.1.2
  refine ⟨⟨10 * ((i 1).val / 4096) + 9, hlt⟩, (flush0_4 _).mpr (by show (10 * ((i 1).val / 4096) + 9) % 10 = 9; omega), ?_⟩
  rw [mem_blk4]
  intro a
  match a with
  | ⟨0, _⟩ =>
    show win0_4.index ⟨10 * ((i 1).val / 4096) + 9, hlt⟩ (0 : Fin 2) * 1 ≤ (i 0).val ∧ (i 0).val < win0_4.index ⟨10 * ((i 1).val / 4096) + 9, hlt⟩ (0 : Fin 2) * 1 + 1
    rw [e0]; omega
  | ⟨1, _⟩ =>
    show win0_4.index ⟨10 * ((i 1).val / 4096) + 9, hlt⟩ (1 : Fin 2) * 4096 ≤ (i 1).val ∧ (i 1).val < win0_4.index ⟨10 * ((i 1).val / 4096) + 9, hlt⟩ (1 : Fin 2) * 4096 + 4096
    rw [e1]; omega

/-- The sumsq array after the region. -/
theorem final_sumsq (c : Dev nD) : (dats m 0 c).arrAt 4 cfg0.N = colSq m c :=
  (dats m 0 c).arrAt_eq_of_cover 4 (colSq m c) (flushed_sumsq m c) cover_sumsq

/-- An index of the resid array is in point `t`'s block iff each coordinate is in the block's range on its axis. -/
theorem mem_blk5 (t : Fin cfg0.N) (i : S1x32768.Idx) :
    i ∈ ((cfg0.win 5).blk t).view.set ↔ ∀ a : Fin 2, win0_5.index t a * S1x4096.size a ≤ (i a).val ∧ (i a).val < win0_5.index t a * S1x4096.size a + S1x4096.size a := by
  show i ∈ ((View.whole main_v2_3).slice (win0_5.rect t)).set ↔ _
  rw [View.set_slice_whole, Rect.mem_set_unit]
  exact Iff.rfl

/-- What a last row block writes back into the resid array is its block of the column function. -/
theorem flushed_resid (c : Dev nD) (t : Fin cfg0.N) (hf : (cfg0.win 5).flush t = true) :
    (dats m 0 c).flushed 5 t = ((cfg0.win 5).blk t).view.read (Elt Ideal) (colRes m c) := by
  have h9 : t.val % 10 = 9 := (flush0_5 t).mp hf
  have hN : cfg0.N = 80 := N_0
  have hb : t.val / 10 < 8 := by have := t.isLt; omega
  have e1 : win0_5.index t (1 : Fin 2) = t.val / 10 := (out_idx t).2.2.2.2
  show (cfg0.win 5).cut (grid0.coords t) ((dats m 0 c).after 5 t) = _
  rw [after0_5]
  refine funext fun (y : S1x4096.Idx) => ?_
  obtain ⟨z, q, rfl⟩ : ∃ (z : Fin 1) (q : Fin 4096), y = ix2 z q := ⟨y 0, y 1, eq_ix2 y⟩
  refine ((outs_last m c t h9 z q).2.2.2).trans ?_
  rw [res_rows m c (t.val / 10) hb q]
  show _ = colRes m c (((cfg0.win 5).blk t).view.emb (ix2 z q))
  refine Finset.sum_congr rfl fun T _ => ?_
  have ei : (ix2 T (⟨4096 * (t.val / 10) + q.val, by omega⟩ : Fin 32768) : S2000x32768.Idx)
      = ix2 T (⟨((((cfg0.win 5).blk t).view.emb (ix2 z q)) 1).val, ((((cfg0.win 5).blk t).view.emb (ix2 z q)) 1).isLt⟩ : Fin 32768) := by
    refine congrArg (ix2 T) (Fin.ext ?_)
    show 4096 * (t.val / 10) + q.val = win0_5.index t (1 : Fin 2) * 4096 + 1 * q.val
    rw [e1]; omega
  rw [ei]

/-- Every index of the resid array is in the block of its column block's last row block. -/
theorem cover_resid (i : S1x32768.Idx) :
    ∃ t : Fin cfg0.N, (cfg0.win 5).flush t = true ∧ i ∈ ((cfg0.win 5).blk t).view.set := by
  have hN : cfg0.N = 80 := N_0
  have h0 : (i 0).val < 1 := (i 0).isLt
  have h1 : (i 1).val < 32768 := (i 1).isLt
  have hlt : 10 * ((i 1).val / 4096) + 9 < cfg0.N := by omega
  have e0 : win0_5.index ⟨10 * ((i 1).val / 4096) + 9, hlt⟩ (0 : Fin 2) = 0 := (out_idx _).2.2.2.1
  have e1 : win0_5.index ⟨10 * ((i 1).val / 4096) + 9, hlt⟩ (1 : Fin 2) = (10 * ((i 1).val / 4096) + 9) / 10 := (out_idx _).2.2.2.2
  refine ⟨⟨10 * ((i 1).val / 4096) + 9, hlt⟩, (flush0_5 _).mpr (by show (10 * ((i 1).val / 4096) + 9) % 10 = 9; omega), ?_⟩
  rw [mem_blk5]
  intro a
  match a with
  | ⟨0, _⟩ =>
    show win0_5.index ⟨10 * ((i 1).val / 4096) + 9, hlt⟩ (0 : Fin 2) * 1 ≤ (i 0).val ∧ (i 0).val < win0_5.index ⟨10 * ((i 1).val / 4096) + 9, hlt⟩ (0 : Fin 2) * 1 + 1
    rw [e0]; omega
  | ⟨1, _⟩ =>
    show win0_5.index ⟨10 * ((i 1).val / 4096) + 9, hlt⟩ (1 : Fin 2) * 4096 ≤ (i 1).val ∧ (i 1).val < win0_5.index ⟨10 * ((i 1).val / 4096) + 9, hlt⟩ (1 : Fin 2) * 4096 + 4096
    rw [e1]; omega

/-- The resid array after the region. -/
theorem final_resid (c : Dev nD) : (dats m 0 c).arrAt 5 cfg0.N = colRes m c :=
  (dats m 0 c).arrAt_eq_of_cover 5 (colRes m c) (flushed_resid m c) cover_resid

end Cert.KernelIdeal.Columns

end
-- ==== Proof.RefColumns.lean ====
/-
  The reference, column by column: what each of its per-column quantities is, read at a column (g, k) of a target
  array and an output array of shape [2000, 8192, 4]. On the extended reals no element differs from itself, so the
  "is a number" mask is constantly one, every select on it returns its first branch, and the count of the mask over
  the 2000 rows of a column is 2000. With that: the column sum of the target, the total sum of squares about the
  mean, the residual sum of squares, the validity bit of a column, and the number of valid columns as a float.
-/
import proofs.«133919_j7301444403966_2_alg».proof.Proof.Gen.ReferenceIdeal.Read
import Idealize.ShloMosaic.Lib.ValueIdx
import Idealize.ShloMosaic.Lib.IndicatorCount
import Idealize.ShloMosaic.Lib.KernelVsHost
import Idealize.ShloMosaic.PureOps.Ideal.Laws
import Idealize.ShloMosaic.PureOps.Reduce

noncomputable section

namespace Cert.RefColumns

open Cert.ReferenceIdeal Cert.ReferenceIdeal.Gen Idealize.ShloMosaic Idealize.ShloMosaic.ValueIdx

/-- On the extended reals nothing differs from itself, so the "is a number" mask is constantly one. -/
theorem mask_one (x1 : (⟨S2000x8192x4, .f32⟩ : BufTy).Contents (Elt Ideal)) (i : S2000x8192x4.Idx) :
    Read.val_main_v1 (F := Ideal) x1 i = 1#1 := by
  rw [Read.val_main_v1_apply, Read.val_main_v0_apply, Ideal.cmpf_def]
  simp [Ideal.cmp]

/-- The row index the column sums read is the index built from the three coordinates. -/
theorem idx9_eq (g : Fin 8192) (k : Fin 4) (T : Fin 2000) : Read.idx_main_v9 (ix2 g k) T = ix3 T g k :=
  funext fun a => by match a with | ⟨0, _⟩ => rfl | ⟨1, _⟩ => rfl | ⟨2, _⟩ => rfl

/-- The masked target is the target. -/
theorem v2_eq (x1 : (⟨S2000x8192x4, .f32⟩ : BufTy).Contents (Elt Ideal)) (i : S2000x8192x4.Idx) :
    Read.val_main_v2 (F := Ideal) x1 i = x1 i := by
  rw [Read.val_main_v2_apply, mask_one, select_one]

/-- The masked output is the output. -/
theorem v3_eq (x0 x1 : (⟨S2000x8192x4, .f32⟩ : BufTy).Contents (Elt Ideal)) (i : S2000x8192x4.Idx) :
    Read.val_main_v3 (F := Ideal) x0 x1 i = x0 i := by
  rw [Read.val_main_v3_apply, mask_one, select_one]

/-- The column sum of the target. -/
theorem sumt_eq (x1 : (⟨S2000x8192x4, .f32⟩ : BufTy).Contents (Elt Ideal)) (g : Fin 8192) (k : Fin 4) :
    Read.val_main_v9 (F := Ideal) x1 (ix2 g k) = ∑ T : Fin 2000, x1 (ix3 T g k) := by
  rw [Read.val_main_v9_apply, Read.val_main_cst_2_apply, Ideal.ofBits_def, Ideal.ofBits_zero_f32, zero_add]
  refine Finset.sum_congr rfl fun T _ => ?_
  rw [idx9_eq, v2_eq]

theorem idx19_eq (g : Fin 8192) (k : Fin 4) (T : Fin 2000) : Read.idx_main_v19 (ix2 g k) T = ix3 T g k :=
  funext fun a => by match a with | ⟨0, _⟩ => rfl | ⟨1, _⟩ => rfl | ⟨2, _⟩ => rfl

theorem idx16_eq (g : Fin 8192) (k : Fin 4) (T : Fin 2000) : Read.idx_main_v16 (ix2 g k) T = ix3 T g k :=
  funext fun a => by match a with | ⟨0, _⟩ => rfl | ⟨1, _⟩ => rfl | ⟨2, _⟩ => rfl

/-- The residual sum of squares of a column. -/
theorem ssres_eq (x0 x1 : (⟨S2000x8192x4, .f32⟩ : BufTy).Contents (Elt Ideal)) (g : Fin 8192) (k : Fin 4) :
    Read.val_main_v19 (F := Ideal) x0 x1 (ix2 g k)
      = ∑ T : Fin 2000, (x1 (ix3 T g k) - x0 (ix3 T g k)) * (x1 (ix3 T g k) - x0 (ix3 T g k)) := by
  rw [Read.val_main_v19_apply, Read.val_main_cst_5_apply, Ideal.ofBits_def, Ideal.ofBits_zero_f32, zero_add]
  refine Finset.sum_congr rfl fun T _ => ?_
  rw [idx19_eq, Read.val_main_v18_apply, Read.val_main_v17_apply, v2_eq, v3_eq]
  rfl

/-- The shape fact of the reduction over the rows, in the form the one-axis fold lemma takes. -/
theorem reduces_rows : S2000x8192x4.Reduces [0] S8192x4 := by decide

/-- The count of the mask over the rows of a column is the number of rows. -/
theorem count_eq (x1 : (⟨S2000x8192x4, .f32⟩ : BufTy).Contents (Elt Ideal)) (i : S8192x4.Idx) :
    Read.val_main_v5 (F := Ideal) x1 i = BitVec.ofNat 32 2000 := by
  unfold Read.val_main_v5
  rw [Host.reduce_eq_fold_single IntOp.addi _ _ reducesTo_S2000x8192x4_S8192x4_d0 reduces_rows h_S_ i]
  have hf : (Read.val_main_v4 (F := Ideal) x1 ∘ reduces_rows.lift i)
      = fun T => (Read.val_main_v1 (F := Ideal) x1 (reduces_rows.lift i T)).setWidth 32 := rfl
  rw [hf, show Read.val_main_c (F := Ideal) (Shape.Idx.first h_S_) = 0#32 from rfl,
    IndicatorCount.fold_addi_setWidth_eq_card]
  rw [Finset.filter_true_of_mem (fun T _ => mask_one x1 _), Finset.card_univ, Fintype.card_fin]
  rfl

/-- The count, floored at one and read as a float, is the number of rows. -/
theorem safe_cnt (x1 : (⟨S2000x8192x4, .f32⟩ : BufTy).Contents (Elt Ideal)) (i : S8192x4.Idx) :
    Read.val_main_v8 (F := Ideal) x1 i = ((2000 : ℝ) : EReal) := by
  rw [Read.val_main_v8_apply, Read.val_main_v7_apply, count_eq, Read.val_main_v6_apply, Read.val_main_c_1_apply]
  have h : IntOp.maxsi (BitVec.ofNat 32 2000) 1#32 = BitVec.ofNat 32 2000 := by decide
  rw [h]
  show (((BitVec.ofNat 32 2000).toInt : ℝ) : EReal) = ((2000 : ℝ) : EReal)
  have h2 : (BitVec.ofNat 32 2000).toInt = 2000 := by decide
  rw [h2]
  norm_num

/-- The mean's index, broadcast back over the rows, is the column's. -/
theorem idx_mean_eq (g : Fin 8192) (k : Fin 4) (T : Fin 2000) :
    Read.idx_main_v11 (Read.idx_main_v12 (ix3 T g k)) = ix2 g k :=
  funext fun a => by match a with | ⟨0, _⟩ => rfl | ⟨1, _⟩ => rfl

/-- The total sum of squares of a column about its mean. -/
theorem sst_eq (x1 : (⟨S2000x8192x4, .f32⟩ : BufTy).Contents (Elt Ideal)) (g : Fin 8192) (k : Fin 4) :
    Read.val_main_v16 (F := Ideal) x1 (ix2 g k)
      = ∑ T : Fin 2000, (x1 (ix3 T g k) - Ideal.div (∑ T' : Fin 2000, x1 (ix3 T' g k)) ((2000 : ℝ) : EReal))
          * (x1 (ix3 T g k) - Ideal.div (∑ T' : Fin 2000, x1 (ix3 T' g k)) ((2000 : ℝ) : EReal)) := by
  rw [Read.val_main_v16_apply, Read.val_main_cst_4_apply, Ideal.ofBits_def, Ideal.ofBits_zero_f32, zero_add]
  refine Finset.sum_congr rfl fun T _ => ?_
  rw [idx16_eq, Read.val_main_v15_apply, Read.val_main_v14_apply, mask_one, select_one, Read.val_main_v13_apply,
    v2_eq, Read.val_main_v12_apply, Read.val_main_v11_apply, idx_mean_eq, Read.val_main_v10_apply, sumt_eq, safe_cnt]
  rfl

/-- The count of a column is positive. -/
theorem cnt_pos (x1 : (⟨S2000x8192x4, .f32⟩ : BufTy).Contents (Elt Ideal)) (i : S8192x4.Idx) :
    Read.val_main_v21 (F := Ideal) x1 i = 1#1 := by
  rw [Read.val_main_v21_apply, count_eq, Read.val_main_v20_apply, Read.val_main_c_6_apply]
  decide

/-- A column is valid exactly when its total sum of squares is not zero. -/
theorem valid_eq (x1 : (⟨S2000x8192x4, .f32⟩ : BufTy).Contents (Elt Ideal)) (i : S8192x4.Idx) :
    Read.val_main_v24 (F := Ideal) x1 i = Ideal.cmp .une (Read.val_main_v16 (F := Ideal) x1 i) 0 := by
  rw [Read.val_main_v24_apply, cnt_pos, Read.val_main_v23_apply, Read.val_main_v22_apply, Read.val_main_cst_7_apply,
    Ideal.ofBits_def, Ideal.ofBits_zero_f32, Ideal.cmpf_def]
  generalize Ideal.cmp .une (Read.val_main_v16 (F := Ideal) x1 i) 0 = b
  revert b
  decide

/-- The number of ones among one-bit words is the sum of their values. -/
theorem card_filter_one_eq_sum_toNat {ι : Type} (S : Finset ι) (b : ι → BitVec 1) :
    (S.filter fun g => b g = 1#1).card = ∑ g ∈ S, (b g).toNat := by
  rw [Finset.card_filter]
  refine Finset.sum_congr rfl fun g _ => ?_
  rcases BitVec.eq_zero_or_eq_one (b g) with h | h <;> rw [h] <;> decide

/-- The coercion of the reals into the extended reals commutes with a finite sum. -/
theorem coe_finset_sum {ι : Type} (S : Finset ι) (f : ι → ℝ) :
    ((∑ g ∈ S, f g : ℝ) : EReal) = ∑ g ∈ S, (f g : EReal) := by
  classical
  induction S using Finset.induction_on with
  | empty => simp
  | insert a S ha ih => rw [Finset.sum_insert ha, Finset.sum_insert ha, EReal.coe_add, ih]

/-- A count of ones below 2^31, held in a 32-bit word and read signed, is the sum of the bits' values. -/
theorem toInt_count_eq_sum {ι : Type} [Fintype ι] (b : ι → BitVec 1) (hc : Fintype.card ι < 2 ^ 31) :
    (((BitVec.ofNat 32 (Finset.univ.filter fun g => b g = 1#1).card).toInt : ℝ) : EReal)
      = ∑ g, (((b g).toNat : ℝ) : EReal) := by
  have hn : (Finset.univ.filter fun g => b g = 1#1).card < 2 ^ 31 :=
    lt_of_le_of_lt ((Finset.card_filter_le _ _).trans (le_of_eq Finset.card_univ)) hc
  generalize hN : (Finset.univ.filter fun g => b g = 1#1).card = n at hn
  have h1 : (BitVec.ofNat 32 n).toNat = n := by
    rw [BitVec.toNat_ofNat]; exact Nat.mod_eq_of_lt (by omega)
  have h2 : (BitVec.ofNat 32 n).toInt = (n : ℤ) := by
    rw [BitVec.toInt_eq_toNat_of_lt (by rw [h1]; omega), h1]
  rw [h2, Int.cast_natCast, ← hN, card_filter_one_eq_sum_toNat, Nat.cast_sum, coe_finset_sum]

/-- The shape fact of the reduction over the columns, in the form the one-axis fold lemma takes. -/
theorem reduces_cols : S8192x4.Reduces [0] S4 := by decide

/-- The index over result index k with column coordinate g inserted is (g, k). -/
theorem lift_cols_eq (k : Fin 4) (g : Fin 8192) : reduces_cols.lift (ix1 k) g = ix2 g k :=
  funext fun a => Fin.ext (by match a with | ⟨0, _⟩ => rfl | ⟨1, _⟩ => rfl)

/-- The integer count of the valid columns of a channel. -/
theorem nvalid_eq (x1 : (⟨S2000x8192x4, .f32⟩ : BufTy).Contents (Elt Ideal)) (k : Fin 4) :
    Read.val_main_v32 (F := Ideal) x1 (ix1 k)
      = BitVec.ofNat 32 (Finset.univ.filter fun g : Fin 8192 => Read.val_main_v24 (F := Ideal) x1 (ix2 g k) = 1#1).card := by
  unfold Read.val_main_v32
  rw [Host.reduce_eq_fold_single IntOp.addi _ _ reducesTo_S8192x4_S4_d0 reduces_cols h_S_ (ix1 k)]
  have hf : (Read.val_main_v31 (F := Ideal) x1 ∘ reduces_cols.lift (ix1 k))
      = fun g : Fin 8192 => (Read.val_main_v24 (F := Ideal) x1 (ix2 g k)).setWidth 32 := funext fun g =>
    congrArg (fun j => (Read.val_main_v24 (F := Ideal) x1 j).setWidth 32) (lift_cols_eq k g)
  rw [hf, show Read.val_main_c_12 (F := Ideal) (Shape.Idx.first h_S_) = 0#32 from rfl]
  exact IndicatorCount.fold_addi_setWidth_eq_card _ _

/-- The number of valid columns of a channel, as a float: the sum of the validity bits. -/
theorem nsample_eq (x1 : (⟨S2000x8192x4, .f32⟩ : BufTy).Contents (Elt Ideal)) (k : Fin 4) :
    Read.val_main_v33 (F := Ideal) x1 (ix1 k)
      = ∑ g : Fin 8192, (((Read.val_main_v24 (F := Ideal) x1 (ix2 g k)).toNat : ℝ) : EReal) := by
  rw [Read.val_main_v33_apply, nvalid_eq]
  exact toInt_count_eq_sum (fun g : Fin 8192 => Read.val_main_v24 (F := Ideal) x1 (ix2 g k))
    (by rw [Fintype.card_fin]; norm_num)

end Cert.RefColumns

end
-- ==== Proof.SampleStats.lean ====
import Idealize.ShloMosaic.PureOps.Ideal.Laws

/-!
  Sample statistics over the extended reals.

  For a finite sample of real numbers the one-pass total sum of squares,
  `∑ t² − (∑ t)² / n` clamped below at `0`, equals the two-pass one, `∑ (t − mean)²`
  with `mean = (∑ t) / n`. Over the extended reals the identity needs every entry finite
  (with an infinite entry the left side is `⊤ − ⊤`), which is the hypothesis `ht` below.
  The remaining statements are the small constant facts about the sample size `2000`.
-/

open Idealize.ShloMosaic
open scoped BigOperators

namespace Cert.SampleStats

/-- The coercion of the reals into the extended reals commutes with finite sums. -/
theorem coe_sum {ι : Type*} (S : Finset ι) (f : ι → ℝ) :
    (∑ i ∈ S, ((f i : ℝ) : EReal)) = ((∑ i ∈ S, f i : ℝ) : EReal) := by
  classical
  refine Finset.induction_on S ?_ ?_
  · simp
  · intro a s ha ih
    rw [Finset.sum_insert ha, Finset.sum_insert ha, ih, EReal.coe_add]

/-- The real identity: with `m = (∑ r) · (1/d)` and `d = n ≠ 0`,
    `∑ (r − m)² = ∑ r² − (∑ r)² · (1/d)`. -/
theorem real_sst (n : ℕ) (hn : 0 < n) (d : ℝ) (hd : (n : ℝ) = d) (r : Fin n → ℝ) :
    (∑ k, (r k - (∑ j, r j) * (1 / d)) * (r k - (∑ j, r j) * (1 / d)))
      = (∑ k, r k * r k) - (∑ k, r k) * (∑ k, r k) * (1 / d) := by
  have hn' : (n : ℝ) ≠ 0 := by exact_mod_cast hn.ne'
  subst hd
  generalize hS : (∑ j, r j) = s
  have h1 : ∀ k, (r k - s * (1 / (n : ℝ))) * (r k - s * (1 / (n : ℝ)))
      = r k * r k - (2 * (s * (1 / (n : ℝ)))) * r k + (s * (1 / (n : ℝ))) * (s * (1 / (n : ℝ))) := fun k => by ring
  simp only [h1]
  rw [Finset.sum_add_distrib, Finset.sum_sub_distrib, ← Finset.mul_sum, hS, Finset.sum_const, Finset.card_univ,
    Fintype.card_fin, nsmul_eq_mul]
  field_simp
  ring

/-- The one-pass and two-pass total sums of squares agree on a finite sample, the divisor being any real
    spelling `d` of the sample size. -/
theorem sst_agree_div (n : ℕ) (hn : 0 < n) (d : ℝ) (hd : (n : ℝ) = d) (t : Fin n → EReal)
    (ht : ∀ k, ∃ r : ℝ, t k = (r : EReal)) :
    max ((∑ k, t k * t k) - Ideal.div ((∑ k, t k) * (∑ k, t k)) (d : EReal)) 0
      = ∑ k, (t k - Ideal.div (∑ j, t j) (d : EReal)) * (t k - Ideal.div (∑ j, t j) (d : EReal)) := by
  have hd0 : d ≠ 0 := by rw [← hd]; exact_mod_cast hn.ne'
  choose r hr using ht
  obtain rfl : t = fun k => ((r k : ℝ) : EReal) := funext hr
  simp only [Ideal.div_coe hd0, ← EReal.coe_mul, coe_sum, ← EReal.coe_sub]
  rw [real_sst n hn d hd r]
  refine max_eq_left ?_
  rw [← EReal.coe_zero, EReal.coe_le_coe_iff, ← real_sst n hn d hd r]
  exact Finset.sum_nonneg fun k _ => mul_self_nonneg _

theorem sst_agree (n : ℕ) (hn : 0 < n) (t : Fin n → EReal) (ht : ∀ k, ∃ r : ℝ, t k = (r : EReal)) :
    max ((∑ k, t k * t k) - Ideal.div ((∑ k, t k) * (∑ k, t k)) ((n : ℝ) : EReal)) 0
      = ∑ k, (t k - Ideal.div (∑ j, t j) ((n : ℝ) : EReal)) * (t k - Ideal.div (∑ j, t j) ((n : ℝ) : EReal)) :=
  sst_agree_div n hn (n : ℝ) rfl t ht

theorem sst_agree_2000 (t : Fin 2000 → EReal) (ht : ∀ k, ∃ r : ℝ, t k = (r : EReal)) :
    max ((∑ k, t k * t k) - Ideal.div ((∑ k, t k) * (∑ k, t k)) ((2000 : ℝ) : EReal)) 0
      = ∑ k, (t k - Ideal.div (∑ j, t j) ((2000 : ℝ) : EReal)) * (t k - Ideal.div (∑ j, t j) ((2000 : ℝ) : EReal)) :=
  sst_agree_div 2000 (by norm_num) (2000 : ℝ) (by norm_num) t ht

/-- A sum of `2000` ones is `2000`. -/
theorem sum_one_2000 : (∑ _k : Fin 2000, (1 : EReal)) = ((2000 : ℝ) : EReal) := by
  rw [← EReal.coe_one, coe_sum]
  congr 1
  simp

theorem max_2000_one : max ((2000 : ℝ) : EReal) ((1 : ℝ) : EReal) = ((2000 : ℝ) : EReal) :=
  max_eq_left (EReal.coe_le_coe_iff.mpr (by norm_num))

/-- The same with the extended real `1` itself. -/
theorem max_2000_one' : max ((2000 : ℝ) : EReal) (1 : EReal) = ((2000 : ℝ) : EReal) := by
  rw [← EReal.coe_one]; exact max_2000_one

theorem cmp_2000_pos : Ideal.cmp .ogt ((2000 : ℝ) : EReal) 0 = 1#1 := by
  have h : (0 : EReal) < ((2000 : ℝ) : EReal) := EReal.coe_pos.mpr (by norm_num)
  simp [Ideal.cmp, h]

/-- The single-precision pattern `0x3F800000` denotes `1`. -/
theorem ofBits_one_f32 : Ideal.ofBits .f32 0x3F800000#32 = ((1 : ℝ) : EReal) := by
  simp [Ideal.ofBits, Ideal.ieee, -EReal.coe_mul] <;> norm_num

/-- The same with the extended real `1` itself. -/
theorem ofBits_one_f32' : Ideal.ofBits .f32 0x3F800000#32 = (1 : EReal) := by
  rw [ofBits_one_f32, EReal.coe_one]

end Cert.SampleStats
-- ==== Proof.KernelTail.lean ====
/-
  The program after the launch. The launch leaves four arrays of one row and 32768 columns: the per-column count of
  rows, the sum of the target, its sum of squares, and the residual sum of squares. What follows reshapes each to
  [8192, 4] (column 4g + k is entry (g, k)), forms the clamped one-pass total sum of squares, the validity bit, the
  per-column score, sums scores and validity bits over the 8192 rows, divides, negates, and sums over the 4 columns.
  With every target entry finite this is the reference's value, which takes the two-pass total sum of squares and an
  integer count of the validity bits.
-/
import proofs.«133919_j7301444403966_2_alg».proof.Proof.Gen.KernelIdeal
import proofs.«133919_j7301444403966_2_alg».proof.Proof.RefColumns
import proofs.«133919_j7301444403966_2_alg».proof.Proof.SampleStats
import proofs.«133919_j7301444403966_2_alg».proof.Proof.BlockSums
import Idealize.ShloMosaic.Lib.ValueIdx
import Idealize.ShloMosaic.Lib.IdealHost
import Idealize.ShloMosaic.Lib.KernelVsHost
import Idealize.ShloMosaic.PureOps.Ideal.Laws
import Idealize.ShloMosaic.PureOps.Reduce

noncomputable section

namespace Cert.KernelTail

open Cert.KernelIdeal Cert.KernelIdeal.Gen Idealize.ShloMosaic Idealize.ShloMosaic.ValueIdx

/-- What the program computes after the launch from the four per-column arrays it leaves: the count of rows `C`, the
    sum of the target `S`, its sum of squares `Q` and the residual sum of squares `R`, each one row of 32768 columns. -/
def tail (C S Q R : FVec Ideal S1x32768 .f32) : FVec Ideal S_ .f32 :=
  let v3 : FVec Ideal S8192x4 .f32 := shapeCast S8192x4 C shapeCasts_S1x32768_S8192x4
  let v4 : FVec Ideal S8192x4 .f32 := shapeCast S8192x4 S shapeCasts_S1x32768_S8192x4
  let v5 : FVec Ideal S8192x4 .f32 := shapeCast S8192x4 Q shapeCasts_S1x32768_S8192x4
  let v6 : FVec Ideal S8192x4 .f32 := shapeCast S8192x4 R shapeCasts_S1x32768_S8192x4
  let cst : FVec Ideal S_ .f32 := constant (F := Ideal) S_ .f32 0x3F800000#32
  let v7 : FVec Ideal S8192x4 .f32 := broadcastInDim S8192x4 ![] bcast_S_S8192x4 cst
  let v8 : FVec Ideal S8192x4 .f32 := maximumf v3 v7
  let v9 : FVec Ideal S8192x4 .f32 := mulf v4 v4
  let v10 : FVec Ideal S8192x4 .f32 := Host.divf v9 v8
  let v11 : FVec Ideal S8192x4 .f32 := subf v5 v10
  let cst_0 : FVec Ideal S_ .f32 := constant (F := Ideal) S_ .f32 0x00000000#32
  let v12 : FVec Ideal S8192x4 .f32 := broadcastInDim S8192x4 ![] bcast_S_S8192x4 cst_0
  let v13 : FVec Ideal S8192x4 .f32 := maximumf v11 v12
  let cst_1 : FVec Ideal S_ .f32 := constant (F := Ideal) S_ .f32 0x00000000#32
  let v14 : FVec Ideal S8192x4 .f32 := broadcastInDim S8192x4 ![] bcast_S_S8192x4 cst_1
  let v15 : IVec S8192x4 1 := cmpf .ogt v3 v14
  let cst_2 : FVec Ideal S_ .f32 := constant (F := Ideal) S_ .f32 0x00000000#32
  let v16 : FVec Ideal S8192x4 .f32 := broadcastInDim S8192x4 ![] bcast_S_S8192x4 cst_2
  let v17 : IVec S8192x4 1 := cmpf .une v13 v16
  let v18 : IVec S8192x4 1 := andi v15 v17
  let cst_3 : FVec Ideal S_ .f32 := constant (F := Ideal) S_ .f32 0x3F800000#32
  let call0_v0 : FVec Ideal S_ .f32 := id cst_3
  let call0_v1 : FVec Ideal S8192x4 .f32 := broadcastInDim S8192x4 ![] bcast_S_S8192x4 call0_v0
  let v19 : FVec Ideal S8192x4 .f32 := select v18 v13 call0_v1
  let v20 : FVec Ideal S8192x4 .f32 := Host.divf v6 v19
  let cst_4 : FVec Ideal S_ .f32 := constant (F := Ideal) S_ .f32 0x3F800000#32
  let v21 : FVec Ideal S8192x4 .f32 := broadcastInDim S8192x4 ![] bcast_S_S8192x4 cst_4
  let v22 : FVec Ideal S8192x4 .f32 := subf v21 v20
  let cst_5 : FVec Ideal S_ .f32 := constant (F := Ideal) S_ .f32 0x00000000#32
  let call1_v0 : FVec Ideal S_ .f32 := id cst_5
  let call1_v1 : FVec Ideal S8192x4 .f32 := broadcastInDim S8192x4 ![] bcast_S_S8192x4 call1_v0
  let v23 : FVec Ideal S8192x4 .f32 := select v18 v22 call1_v1
  let cst_6 : FVec Ideal S_ .f32 := constant (F := Ideal) S_ .f32 0x00000000#32
  let v24 : FVec Ideal S4 .f32 := Host.reduceAdd v23 cst_6 reducesTo_S8192x4_S4_d0 h_S_
  let v25 : FVec Ideal S8192x4 .f32 := uitofp .f32 v18
  let cst_7 : FVec Ideal S_ .f32 := constant (F := Ideal) S_ .f32 0x00000000#32
  let v26 : FVec Ideal S4 .f32 := Host.reduceAdd v25 cst_7 reducesTo_S8192x4_S4_d0 h_S_
  let v27 : FVec Ideal S4 .f32 := Host.divf v24 v26
  let v28 : FVec Ideal S4 .f32 := Host.negf v27
  let cst_8 : FVec Ideal S_ .f32 := constant (F := Ideal) S_ .f32 0x00000000#32
  let v29 : FVec Ideal S_ .f32 := Host.reduceAdd v28 cst_8 reducesTo_S4_S_d0 h_S_
  v29

/-- The clamped one-pass total sum of squares of the columns. -/
def sstK (C S Q : FVec Ideal S1x32768 .f32) : FVec Ideal S8192x4 .f32 :=
  let v3 : FVec Ideal S8192x4 .f32 := shapeCast S8192x4 C shapeCasts_S1x32768_S8192x4
  let v4 : FVec Ideal S8192x4 .f32 := shapeCast S8192x4 S shapeCasts_S1x32768_S8192x4
  let v5 : FVec Ideal S8192x4 .f32 := shapeCast S8192x4 Q shapeCasts_S1x32768_S8192x4
  let cst : FVec Ideal S_ .f32 := constant (F := Ideal) S_ .f32 0x3F800000#32
  let v7 : FVec Ideal S8192x4 .f32 := broadcastInDim S8192x4 ![] bcast_S_S8192x4 cst
  let v8 : FVec Ideal S8192x4 .f32 := maximumf v3 v7
  let v9 : FVec Ideal S8192x4 .f32 := mulf v4 v4
  let v10 : FVec Ideal S8192x4 .f32 := Host.divf v9 v8
  let v11 : FVec Ideal S8192x4 .f32 := subf v5 v10
  let cst_0 : FVec Ideal S_ .f32 := constant (F := Ideal) S_ .f32 0x00000000#32
  let v12 : FVec Ideal S8192x4 .f32 := broadcastInDim S8192x4 ![] bcast_S_S8192x4 cst_0
  maximumf v11 v12

/-- The validity bits of the columns, from the counts and a total sum of squares `A`. -/
def validK (C : FVec Ideal S1x32768 .f32) (A : FVec Ideal S8192x4 .f32) : IVec S8192x4 1 :=
  let v3 : FVec Ideal S8192x4 .f32 := shapeCast S8192x4 C shapeCasts_S1x32768_S8192x4
  let cst_1 : FVec Ideal S_ .f32 := constant (F := Ideal) S_ .f32 0x00000000#32
  let v14 : FVec Ideal S8192x4 .f32 := broadcastInDim S8192x4 ![] bcast_S_S8192x4 cst_1
  let v15 : IVec S8192x4 1 := cmpf .ogt v3 v14
  let cst_2 : FVec Ideal S_ .f32 := constant (F := Ideal) S_ .f32 0x00000000#32
  let v16 : FVec Ideal S8192x4 .f32 := broadcastInDim S8192x4 ![] bcast_S_S8192x4 cst_2
  let v17 : IVec S8192x4 1 := cmpf .une A v16
  andi v15 v17

/-- The value from the validity bits `V`, the total sum of squares `A` and the residual sum of squares `Rr` of the columns. -/
def rest (V : IVec S8192x4 1) (A Rr : FVec Ideal S8192x4 .f32) : FVec Ideal S_ .f32 :=
  let cst_3 : FVec Ideal S_ .f32 := constant (F := Ideal) S_ .f32 0x3F800000#32
  let call0_v0 : FVec Ideal S_ .f32 := id cst_3
  let call0_v1 : FVec Ideal S8192x4 .f32 := broadcastInDim S8192x4 ![] bcast_S_S8192x4 call0_v0
  let v19 : FVec Ideal S8192x4 .f32 := select V A call0_v1
  let v20 : FVec Ideal S8192x4 .f32 := Host.divf Rr v19
  let cst_4 : FVec Ideal S_ .f32 := constant (F := Ideal) S_ .f32 0x3F800000#32
  let v21 : FVec Ideal S8192x4 .f32 := broadcastInDim S8192x4 ![] bcast_S_S8192x4 cst_4
  let v22 : FVec Ideal S8192x4 .f32 := subf v21 v20
  let cst_5 : FVec Ideal S_ .f32 := constant (F := Ideal) S_ .f32 0x00000000#32
  let call1_v0 : FVec Ideal S_ .f32 := id cst_5
  let call1_v1 : FVec Ideal S8192x4 .f32 := broadcastInDim S8192x4 ![] bcast_S_S8192x4 call1_v0
  let v23 : FVec Ideal S8192x4 .f32 := select V v22 call1_v1
  let cst_6 : FVec Ideal S_ .f32 := constant (F := Ideal) S_ .f32 0x00000000#32
  let v24 : FVec Ideal S4 .f32 := Host.reduceAdd v23 cst_6 reducesTo_S8192x4_S4_d0 h_S_
  let v25 : FVec Ideal S8192x4 .f32 := uitofp .f32 V
  let cst_7 : FVec Ideal S_ .f32 := constant (F := Ideal) S_ .f32 0x00000000#32
  let v26 : FVec Ideal S4 .f32 := Host.reduceAdd v25 cst_7 reducesTo_S8192x4_S4_d0 h_S_
  let v27 : FVec Ideal S4 .f32 := Host.divf v24 v26
  let v28 : FVec Ideal S4 .f32 := Host.negf v27
  let cst_8 : FVec Ideal S_ .f32 := constant (F := Ideal) S_ .f32 0x00000000#32
  Host.reduceAdd v28 cst_8 reducesTo_S4_S_d0 h_S_

/-- The program after the launch, in its three stages. -/
theorem tail_eq_stages (C S Q R : FVec Ideal S1x32768 .f32) :
    tail C S Q R = rest (validK C (sstK C S Q)) (sstK C S Q) (shapeCast S8192x4 R shapeCasts_S1x32768_S8192x4) := rfl

/-- The clamped one-pass total sum of squares read at a column. -/
theorem sstK_apply (C S Q : FVec Ideal S1x32768 .f32) (g : Fin 8192) (k : Fin 4) :
    sstK C S Q (ix2 g k)
      = max (Q (ix2 (0 : Fin 1) (⟨4 * g.val + k.val, by omega⟩ : Fin 32768))
            - Ideal.div (S (ix2 (0 : Fin 1) (⟨4 * g.val + k.val, by omega⟩ : Fin 32768)) * S (ix2 (0 : Fin 1) (⟨4 * g.val + k.val, by omega⟩ : Fin 32768)))
                (max (C (ix2 (0 : Fin 1) (⟨4 * g.val + k.val, by omega⟩ : Fin 32768))) 1)) 0 := by
  unfold sstK
  simp only [maximumf_apply, subf_apply, hostDivf_apply, mulf_apply, Cert.BlockSums.reshape_row]
  show max (Q _ - Ideal.div (S _ * S _) (max (C _) (Ideal.ofBits .f32 0x3F800000#32))) (Ideal.ofBits .f32 0x00000000#32) = _
  rw [Ideal.ofBits_zero_f32, Cert.SampleStats.ofBits_one_f32']

section Agree
variable (x0 x1 : (⟨Cert.ReferenceIdeal.S2000x8192x4, .f32⟩ : BufTy).Contents (Elt Ideal))

/-- With every target entry finite, the clamped one-pass total sum of squares is the reference's two-pass one. -/
theorem sstK_eq (hfin : ∀ i, ∃ r : ℝ, x1 i = (r : EReal)) (C S Q : FVec Ideal S1x32768 .f32)
    (hC : ∀ (g : Fin 8192) (k : Fin 4), C (ix2 (0 : Fin 1) (⟨4 * g.val + k.val, by omega⟩ : Fin 32768)) = ∑ _T : Fin 2000, (1 : EReal))
    (hS : ∀ (g : Fin 8192) (k : Fin 4), S (ix2 (0 : Fin 1) (⟨4 * g.val + k.val, by omega⟩ : Fin 32768)) = ∑ T : Fin 2000, x1 (ix3 T g k))
    (hQ : ∀ (g : Fin 8192) (k : Fin 4), Q (ix2 (0 : Fin 1) (⟨4 * g.val + k.val, by omega⟩ : Fin 32768)) = ∑ T : Fin 2000, x1 (ix3 T g k) * x1 (ix3 T g k)) :
    sstK C S Q = Cert.ReferenceIdeal.Read.val_main_v16 (F := Ideal) x1 := by
  funext i
  obtain ⟨g, k, rfl⟩ : ∃ g k, i = ix2 g k := ⟨i 0, i 1, eq_ix2 i⟩
  rw [sstK_apply, hC, hS, hQ, Cert.SampleStats.sum_one_2000, Cert.SampleStats.max_2000_one', Cert.RefColumns.sst_eq]
  exact Cert.SampleStats.sst_agree_2000 (fun T => x1 (ix3 T g k)) (fun T => hfin _)

/-- The validity bits from the counts and the reference's total sum of squares are the reference's. -/
theorem validK_eq (C : FVec Ideal S1x32768 .f32)
    (hC : ∀ (g : Fin 8192) (k : Fin 4), C (ix2 (0 : Fin 1) (⟨4 * g.val + k.val, by omega⟩ : Fin 32768)) = ∑ _T : Fin 2000, (1 : EReal)) :
    validK C (Cert.ReferenceIdeal.Read.val_main_v16 (F := Ideal) x1) = Cert.ReferenceIdeal.Read.val_main_v24 (F := Ideal) x1 := by
  funext i
  obtain ⟨g, k, rfl⟩ : ∃ g k, i = ix2 g k := ⟨i 0, i 1, eq_ix2 i⟩
  rw [Cert.RefColumns.valid_eq]
  unfold validK
  show IntOp.andi (FloatOps.cmpf .ogt (shapeCast S8192x4 C shapeCasts_S1x32768_S8192x4 (ix2 g k)) (Ideal.ofBits .f32 0x00000000#32))
      (FloatOps.cmpf .une (Cert.ReferenceIdeal.Read.val_main_v16 (F := Ideal) x1 (ix2 g k)) (Ideal.ofBits .f32 0x00000000#32)) = _
  rw [Cert.BlockSums.reshape_row, hC, Cert.SampleStats.sum_one_2000, Ideal.ofBits_zero_f32, Ideal.cmpf_def, Ideal.cmpf_def,
    Cert.SampleStats.cmp_2000_pos]
  generalize Ideal.cmp .une (Cert.ReferenceIdeal.Read.val_main_v16 (F := Ideal) x1 (ix2 g k)) 0 = b
  revert b
  decide

/-- The reshaped residual sums of squares are the reference's. -/
theorem resid_eq (R : FVec Ideal S1x32768 .f32)
    (hR : ∀ (g : Fin 8192) (k : Fin 4), R (ix2 (0 : Fin 1) (⟨4 * g.val + k.val, by omega⟩ : Fin 32768))
      = ∑ T : Fin 2000, (x1 (ix3 T g k) - x0 (ix3 T g k)) * (x1 (ix3 T g k) - x0 (ix3 T g k))) :
    shapeCast S8192x4 R shapeCasts_S1x32768_S8192x4 = Cert.ReferenceIdeal.Read.val_main_v19 (F := Ideal) x0 x1 := by
  funext i
  obtain ⟨g, k, rfl⟩ : ∃ g k, i = ix2 g k := ⟨i 0, i 1, eq_ix2 i⟩
  rw [Cert.BlockSums.reshape_row, hR, Cert.RefColumns.ssres_eq]

/-- The float sum of the validity bits over the columns of a channel is the integer count of them read as a float. -/
theorem nvalid_float :
    Host.reduceAdd (uitofp (F := Ideal) .f32 (Cert.ReferenceIdeal.Read.val_main_v24 (F := Ideal) x1))
        (constant (F := Ideal) S_ .f32 0x00000000#32) reducesTo_S8192x4_S4_d0 h_S_
      = Cert.ReferenceIdeal.Read.val_main_v33 (F := Ideal) x1 := by
  funext j
  obtain ⟨k, rfl⟩ : ∃ k, j = ix1 k := ⟨j 0, eq_ix1 j⟩
  rw [hostReduceAdd_apply, Ideal.hostReduceAdd_single reducesTo_S8192x4_S4_d0 Cert.RefColumns.reduces_cols,
    Cert.RefColumns.nsample_eq, constant_apply, Ideal.ofBits_zero_f32, zero_add]
  refine Finset.sum_congr rfl fun g _ => ?_
  exact congrArg (fun i => uitofp (F := Ideal) .f32 (Cert.ReferenceIdeal.Read.val_main_v24 (F := Ideal) x1) i)
    (Cert.RefColumns.lift_cols_eq k g)

/-- From the reference's validity bits and sums of squares the program's last stage computes the reference's value. -/
theorem rest_eq :
    rest (Cert.ReferenceIdeal.Read.val_main_v24 (F := Ideal) x1) (Cert.ReferenceIdeal.Read.val_main_v16 (F := Ideal) x1)
        (Cert.ReferenceIdeal.Read.val_main_v19 (F := Ideal) x0 x1)
      = Cert.ReferenceIdeal.Read.val_main_v36 (F := Ideal) x0 x1 := by
  unfold rest
  simp only []
  rw [nvalid_float]
  rfl

/-- With every target entry finite, the program after the launch computes the reference's value from the four
    per-column arrays the launch leaves. -/
theorem tail_eq_ref (hfin : ∀ i, ∃ r : ℝ, x1 i = (r : EReal))
    (C S Q R : FVec Ideal S1x32768 .f32)
    (hC : ∀ (g : Fin 8192) (k : Fin 4), C (ix2 (0 : Fin 1) (⟨4 * g.val + k.val, by omega⟩ : Fin 32768)) = ∑ _T : Fin 2000, (1 : EReal))
    (hS : ∀ (g : Fin 8192) (k : Fin 4), S (ix2 (0 : Fin 1) (⟨4 * g.val + k.val, by omega⟩ : Fin 32768)) = ∑ T : Fin 2000, x1 (ix3 T g k))
    (hQ : ∀ (g : Fin 8192) (k : Fin 4), Q (ix2 (0 : Fin 1) (⟨4 * g.val + k.val, by omega⟩ : Fin 32768)) = ∑ T : Fin 2000, x1 (ix3 T g k) * x1 (ix3 T g k))
    (hR : ∀ (g : Fin 8192) (k : Fin 4), R (ix2 (0 : Fin 1) (⟨4 * g.val + k.val, by omega⟩ : Fin 32768))
      = ∑ T : Fin 2000, (x1 (ix3 T g k) - x0 (ix3 T g k)) * (x1 (ix3 T g k) - x0 (ix3 T g k))) :
    tail C S Q R = Cert.ReferenceIdeal.Read.val_main_v36 (F := Ideal) x0 x1 := by
  rw [tail_eq_stages, sstK_eq x1 hfin C S Q hC hS hQ, validK_eq x1 C hC, resid_eq x0 x1 R hR, rest_eq]

end Agree

end Cert.KernelTail

end
-- ==== Proof.KernelRun.lean ====
/-
  The kernel program's run, read: after the launch the four output arrays hold the per-column count, target sum,
  sum of squares and residual sum of squares over all 2000 rows; the program's remaining operations turn them into
  the scalar result. The two reshaped inputs the launch reads are the argument arrays with column `4 g + k` holding
  entry `(g, k)`.
-/
import proofs.«133919_j7301444403966_2_alg».proof.Proof.Arrays
import proofs.«133919_j7301444403966_2_alg».proof.Proof.KernelTail
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Columns Idealize.ShloMosaic.ValueIdx

variable (m : (ℓ : Loc nD τ sig) → Buf (Elt Ideal) ℓ) (ρ : Dev nD → PrngReg)

/-- The scalar the program ends with: its closing operations applied to the four column arrays. -/
abbrev result (c : Dev nD) : Buf (Elt Ideal) ((c.tc : Thread nD τ).loc main_v29) :=
  Cert.KernelTail.tail colCount (colSum m c) (colSq m c) (colRes m c)

/-- The operations after the launch, run from the four arrays the launch leaves, end at `result`. -/
theorem tail_read (c : Dev nD) :
    Pipeline.afterTail₀ cfgs (dats m) 0 (V0 m) [hostOps1, hostOps1_1, hostOps1_2, hostOps1_3, hostOps1_4] c main_v29 = result m c := by
  have a2 : Pipeline.withArrays (cfgs 0).spec c (V0 m c) (fun w => (dats m 0 c).arrAt w (cfgs 0).N) (Proc.devRef .tc main_v2_0) = colCount :=
    (Pipeline.withArrays_arr spec0 launch0.win.arr_inj c (V0 m c) (fun w => (dats m 0 c).arrAt w cfg0.N) 2).trans (final_count m c)
  have a3 : Pipeline.withArrays (cfgs 0).spec c (V0 m c) (fun w => (dats m 0 c).arrAt w (cfgs 0).N) (Proc.devRef .tc main_v2_1) = colSum m c :=
    (Pipeline.withArrays_arr spec0 launch0.win.arr_inj c (V0 m c) (fun w => (dats m 0 c).arrAt w cfg0.N) 3).trans (final_sum m c)
  have a4 : Pipeline.withArrays (cfgs 0).spec c (V0 m c) (fun w => (dats m 0 c).arrAt w (cfgs 0).N) (Proc.devRef .tc main_v2_2) = colSq m c :=
    (Pipeline.withArrays_arr spec0 launch0.win.arr_inj c (V0 m c) (fun w => (dats m 0 c).arrAt w cfg0.N) 4).trans (final_sumsq m c)
  have a5 : Pipeline.withArrays (cfgs 0).spec c (V0 m c) (fun w => (dats m 0 c).arrAt w (cfgs 0).N) (Proc.devRef .tc main_v2_3) = colRes m c :=
    (Pipeline.withArrays_arr spec0 launch0.win.arr_inj c (V0 m c) (fun w => (dats m 0 c).arrAt w cfg0.N) 5).trans (final_resid m c)
  unfold Pipeline.afterTail₀
  generalize Pipeline.withArrays (cfgs 0).spec c (V0 m c) (fun w => (dats m 0 c).arrAt w (cfgs 0).N) = W at a2 a3 a4 a5 ⊢
  simp only [hostOps1, hostOps1_1, hostOps1_2, hostOps1_3, hostOps1_4, List.flatten_cons, List.flatten_nil, List.append_nil, List.cons_append, List.nil_append]
  after_results_simp
  rw [a2, a3, a4, a5]
  rfl

/-- The run: the result at `result`, the two arguments unchanged. -/
theorem run : θ_run defs (onTc (τ := τ) (main (F := Ideal))) ⟨m, fun _ => 0, ρ⟩ fun r => ∀ c : Dev nD,
      r.2.mem ((c.tc : Thread nD τ).loc main_v29) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v29 (Pipeline.mem_restRefs_of main_v29 (by decide) (by decide))).trans (tail_read m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

/-- The target array the launch reads is the second argument reshaped: column `4 g + k` of row `T` is entry `(T, g, k)`. -/
theorem tgt_apply (c : Dev nD) (T : Fin 2000) (g : Fin 8192) (k : Fin 4) :
    tgt m c (ix2 T (⟨4 * g.val + k.val, by omega⟩ : Fin 32768))
      = (m ((c.tc : Thread nD τ).loc main_arg1) : S2000x8192x4.Idx → Ideal .f32) (ix3 T g k) := by
  have e : (V m c main_v1 : S2000x32768.Idx → Ideal .f32)
      = shapeCast S2000x32768 (m ((c.tc : Thread nD τ).loc main_arg1)) shapeCasts_S2000x8192x4_S2000x32768 := by
    show StableHlo.after hostOps0 (fun b => m (c, b)) (Proc.devRef .tc main_v1) = _
    after_results; rfl
  unfold tgt
  rw [e]
  exact Cert.BlockSums.reshape_cols _ _ T g k

/-- The output array the launch reads is the first argument reshaped likewise. -/
theorem outp_apply (c : Dev nD) (T : Fin 2000) (g : Fin 8192) (k : Fin 4) :
    outp m c (ix2 T (⟨4 * g.val + k.val, by omega⟩ : Fin 32768))
      = (m ((c.tc : Thread nD τ).loc main_arg0) : S2000x8192x4.Idx → Ideal .f32) (ix3 T g k) := by
  have e : (V m c main_v0 : S2000x32768.Idx → Ideal .f32)
      = shapeCast S2000x32768 (m ((c.tc : Thread nD τ).loc main_arg0)) shapeCasts_S2000x8192x4_S2000x32768 := by
    show StableHlo.after hostOps0 (fun b => m (c, b)) (Proc.devRef .tc main_v0) = _
    after_results; rfl
  unfold outp
  rw [e]
  exact Cert.BlockSums.reshape_cols _ _ T g k

end Cert.KernelIdeal.Result

end
-- ==== Proof.FiniteInputs.lean ====
import proofs.«133919_j7301444403966_2_alg».proof.Pre_finite_inputs
import Idealize.ShloMosaic.Lib.ReduceAll
import Idealize.ShloMosaic.PureOps.Ideal.Laws
import Idealize.ShloMosaic.Lib.ValueIdx

/-!
  The precondition decoded. The predicate says `|x| < +∞` of every entry of both argument arrays,
  takes the conjunction over each array, and then the conjunction of the two. Where it evaluates to
  all ones over the extended reals, every entry of both arrays is therefore a real number: an
  extended real `x` with `max x (-x) < ⊤` is neither `⊤` nor `⊥`.
-/

noncomputable section

namespace Cert.FiniteInputs

open Idealize.ShloMosaic Idealize.ShloMosaic.ValueIdx

/-- The rank-zero shape has one index. -/
instance : Subsingleton Cert.Pre_finite_inputs.S_.Idx := ⟨fun a b => funext fun d => d.elim0⟩

/-- The single-precision pattern `0x7F800000` denotes `⊤`. -/
theorem ofBits_inf_f32 : Ideal.ofBits .f32 0x7F800000#32 = ⊤ := by simp [Ideal.ofBits, Ideal.ieee]

/-- An extended real whose absolute value `max x (-x)` compares strictly below `+∞` is a real number. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => simp [Ideal.cmp] at h
  | top => simp [Ideal.cmp] at h
  | coe r => exact ⟨r, rfl⟩

/-- Where the precondition is all ones, every entry of both argument arrays is a real number. -/
theorem entries_real [Cert.Pre_finite_inputs.Facts] (x0 x1 : FVec Ideal Cert.Pre_finite_inputs.S2000x8192x4 .f32)
    (h : Cert.Pre_finite_inputs.fn (F := Ideal) x0 x1 = (fun _ => 1#1)) :
    (∀ i, ∃ r : ℝ, x0 i = (r : EReal)) ∧ (∀ i, ∃ r : ℝ, x1 i = (r : EReal)) := by
  have e := congrFun h ValueIdx.ix0
  dsimp only [Cert.Pre_finite_inputs.fn] at e
  obtain ⟨e0, e1⟩ := IntOp.andi_eq_one.1 e
  exact ⟨fun i => real_of_abs_lt_inf (x0 i) (Host.reduce_andi_all _ _ _ _ _ e0 i),
    fun i => real_of_abs_lt_inf (x1 i) (Host.reduce_andi_all _ _ _ _ _ e1 i)⟩

end Cert.FiniteInputs

end
-- ==== Proof.lean ====
/-
  The certificate of the masked per-column efficiency loss: a kernel that accumulates, per column of the two
  [2000, 8192, 4] input arrays, the count of rows, the target's sum, its sum of squares and the residual sum of
  squares over ten row blocks, and then finishes on the host — against the reference, which computes the per-column
  mean and the total sum of squares about it in two passes and counts the valid columns in integers.

  At the ideal values the "is not a NaN" mask is constantly one, so every column counts all 2000 rows. The two
  programs then differ only in the total sum of squares: the kernel's one-pass form, sum t² − (sum t)² / n clamped at
  zero, against the reference's sum (t − mean)². For finite entries these are the same real number, and the
  precondition gives finiteness; everything after that is the same operations on equal arrays, the number of valid
  columns once as a float sum of bits and once as an integer count converted.

  The frames of the two kernel programs are the generated frame certificates; the reference's frame is its generated
  run with the result dropped; the idealization rewrote nothing.
-/
import proofs.«133919_j7301444403966_2_alg».proof.Defs
import proofs.«133919_j7301444403966_2_alg».proof.Proof.Gen.Kernel
import proofs.«133919_j7301444403966_2_alg».proof.Proof.Gen.Kernel.Skeleton
import proofs.«133919_j7301444403966_2_alg».proof.Proof.Gen.Kernel.Launch
import proofs.«133919_j7301444403966_2_alg».proof.Proof.Gen.Kernel.Points
import proofs.«133919_j7301444403966_2_alg».proof.Proof.Gen.Kernel.Frame
import proofs.«133919_j7301444403966_2_alg».proof.Proof.Gen.KernelIdeal
import proofs.«133919_j7301444403966_2_alg».proof.Proof.Gen.KernelIdeal.Skeleton
import proofs.«133919_j7301444403966_2_alg».proof.Proof.Gen.KernelIdeal.Launch
import proofs.«133919_j7301444403966_2_alg».proof.Proof.Gen.KernelIdeal.Points
import proofs.«133919_j7301444403966_2_alg».proof.Proof.Gen.KernelIdeal.Frame
import proofs.«133919_j7301444403966_2_alg».proof.Proof.Gen.ReferenceIdeal
import proofs.«133919_j7301444403966_2_alg».proof.Proof.Gen.ReferenceIdeal.Run
import proofs.«133919_j7301444403966_2_alg».proof.Proof.Gen.ReferenceIdeal.Read
import proofs.«133919_j7301444403966_2_alg».proof.Proof.Gen.Pre_finite_inputs
import proofs.«133919_j7301444403966_2_alg».proof.Proof.KernelRun
import proofs.«133919_j7301444403966_2_alg».proof.Proof.FiniteInputs
import Idealize.ShloMosaic.Adequacy
import Idealize.ShloMosaic.Init

noncomputable section

namespace Cert.Proof

open Idealize.ShloMosaic Idealize.SL.Sem Idealize.ShloMosaic.ValueIdx
open Cert.KernelIdeal.Columns

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, run from memories that agree on the two arguments, end at the same extended real: the kernel's
    four column arrays are the per-column sums over all rows of the arguments' entries, its closing operations on
    them are the reference's value when every target entry is finite, and the precondition says they are. -/
theorem algebraic : Cert.algebraic_KernelIdeal_ReferenceIdeal := by
  intro m ρ m' ρ' hpre hagree
  refine ⟨fun c => Cert.KernelIdeal.Result.result m c, Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v36_eq, (hagree c).1, (hagree c).2]
  obtain ⟨-, hfin⟩ := Cert.FiniteInputs.entries_real _ _ (hpre c)
  refine (Cert.KernelTail.tail_eq_ref _ _ hfin _ _ _ _ ?_ ?_ ?_ ?_).symm
  · intro g k
    rfl
  · intro g k
    show ∑ T : Fin 2000, tgt m c (ix2 T (⟨4 * g.val + k.val, by omega⟩ : Fin 32768)) = _
    exact Finset.sum_congr rfl fun T _ => Cert.KernelIdeal.Result.tgt_apply m c T g k
  · intro g k
    show ∑ T : Fin 2000, tgt m c (ix2 T (⟨4 * g.val + k.val, by omega⟩ : Fin 32768)) * tgt m c (ix2 T (⟨4 * g.val + k.val, by omega⟩ : Fin 32768)) = _
    exact Finset.sum_congr rfl fun T _ => by rw [Cert.KernelIdeal.Result.tgt_apply m c T g k]
  · intro g k
    show ∑ T : Fin 2000, (tgt m c (ix2 T (⟨4 * g.val + k.val, by omega⟩ : Fin 32768)) - outp m c (ix2 T (⟨4 * g.val + k.val, by omega⟩ : Fin 32768)))
        * (tgt m c (ix2 T (⟨4 * g.val + k.val, by omega⟩ : Fin 32768)) - outp m c (ix2 T (⟨4 * g.val + k.val, by omega⟩ : Fin 32768))) = _
    exact Finset.sum_congr rfl fun T _ => by
      rw [Cert.KernelIdeal.Result.tgt_apply m c T g k, Cert.KernelIdeal.Result.outp_apply m c T g k]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
